-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S11264x2048 : Shape := ⟨2, ![11264, 2048]⟩
abbrev S2048x5632 : Shape := ⟨2, ![2048, 5632]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S4x2048x2048 .f32) (main_arg1 : FVec F S11264x2048 .f32) (main_arg2 : FVec F S2048x5632 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S4x2048x2048 : Shape := ⟨3, ![4, 2048, 2048]⟩
abbrev S11264x2048 : Shape := ⟨2, ![11264, 2048]⟩
abbrev S2048x5632 : Shape := ⟨2, ![2048, 5632]⟩
abbrev S8192x2048 : Shape := ⟨2, ![8192, 2048]⟩
abbrev S8192x5632 : Shape := ⟨2, ![8192, 5632]⟩
abbrev S8192x1 : Shape := ⟨2, ![8192, 1]⟩
abbrev S1024x2048 : Shape := ⟨2, ![1024, 2048]⟩
abbrev S256x2048 : Shape := ⟨2, ![256, 2048]⟩
abbrev S1024x256 : Shape := ⟨2, ![1024, 256]⟩
abbrev S1024x1 : Shape := ⟨2, ![1024, 1]⟩
abbrev S1024 : Shape := ⟨1, ![1024]⟩
abbrev S256 : Shape := ⟨1, ![256]⟩
abbrev S256x1 : Shape := ⟨2, ![256, 1]⟩
abbrev S_ : Shape := ⟨0, ![]⟩
abbrev S2048 : Shape := ⟨1, ![2048]⟩
abbrev S2048x1 : Shape := ⟨2, ![2048, 1]⟩
abbrev S1024x512 : Shape := ⟨2, ![1024, 512]⟩
abbrev S2048x512 : Shape := ⟨2, ![2048, 512]⟩

abbrev nBuf : Space → Nat
  | .hbm => 32
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S8192x2048, .f32⟩
  | .hbm, ⟨4, _⟩ => ⟨S8192x5632, .bf16⟩
  | .hbm, ⟨5, _⟩ => ⟨S8192x1, .f32⟩
  | .hbm, ⟨6, _⟩ => ⟨S2048x5632, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x5632, .f32⟩
  | .hbm, ⟨23, _⟩ => ⟨S2048x5632, .f32⟩
  | .hbm, ⟨24, _⟩ => ⟨S_, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S8192x2048, .f32⟩
  | .hbm, ⟨31, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1024x256, .bf16⟩
  | .local _ .vmem, ⟨7, _⟩ => ⟨S1024x256, .bf16⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1024x1, .f32⟩
  | .local _ .vmem, ⟨12, _⟩ => ⟨S1024x512, .bf16⟩
  | .local _ .vmem, ⟨13, _⟩ => ⟨S1024x512, .bf16⟩
  | .local _ .vmem, ⟨14, _⟩ => ⟨S1024x1, .f32⟩
  | .local _ .vmem, ⟨15, _⟩ => ⟨S1024x1, .f32⟩
  | .local _ .vmem, ⟨16, _⟩ => ⟨S2048x512, .bf16⟩
  | .local _ .vmem, ⟨17, _⟩ => ⟨S2048x512, .bf16⟩
  | .local _ .vmem, ⟨18, _⟩ => ⟨S1024x2048, .f32⟩
  | .local _ .vmem, ⟨19, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg1 : BitVec 32 := BitVec.ofNat 32 (i 1).val
  let c21_i32 : BitVec 32 := 21#32
  let v55 : BitVec 1 := Scalar.cmpi .eq arg1 c21_i32
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x2048_S8192x2048 : S4x2048x2048.ShapeCasts S8192x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  reduces_S1024x256_S1024 : S1024x256.Reduces [1] S1024
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  reducesTo_S2048x5632_S2048_d1 : S2048x5632.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x5632_0_1 : S2048x1.BroadcastsInDim S2048x5632 (![0, 1] : Fin 2 → Fin S2048x5632.rank)
  bcast_S_S2048x5632 : S_.BroadcastsInDim S2048x5632 (![] : Fin 0 → Fin S2048x5632.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1024x1_S1024x512 : S1024x1.Broadcasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S4x2048x2048 : S8192x2048.ShapeCasts S4x2048x2048
  dot_S1024x2048_S256x2048_S1024x256_1_1_0_0_n_n_wf : DotDims.WF S1024x2048 S256x2048 S1024x256 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11264x2048.size a
  hwx0_1 : ∀ i : grid0.Coords, EltTy.bits .f32 = 32 ∨ (Rect.block (s := S11264x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11264x2048.size a
  hwx0_2 : ∀ i : grid0.Coords, EltTy.bits .f32 = 32 ∨ (Rect.block (s := S11264x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x5632.size a
  hwx0_3 : ∀ i : grid0.Coords, EltTy.bits .bf16 = 32 ∨ (Rect.block (s := S8192x5632) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x5632.size a
  hwx1_0 : ∀ i : grid1.Coords, EltTy.bits .bf16 = 32 ∨ (Rect.block (s := S8192x5632) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x5632.size a
  hwx1_2 : ∀ i : grid1.Coords, EltTy.bits .bf16 = 32 ∨ (Rect.block (s := S2048x5632) S2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x2048.size a
  hwx1_3 : ∀ i : grid1.Coords, EltTy.bits .f32 = 32 ∨ (Rect.block (s := S8192x2048) S1024x2048.size (cc1_transform_3 i) (hinb1_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S11264x2048 : Shape := ⟨2, ![11264, 2048]⟩
abbrev S2048x5632 : Shape := ⟨2, ![2048, 5632]⟩
abbrev S_ : Shape := ⟨0, ![]⟩
abbrev S4x2048 : Shape := ⟨2, ![4, 2048]⟩
abbrev S4x2048x1 : Shape := ⟨3, ![4, 2048, 1]⟩
abbrev S11264 : Shape := ⟨1, ![11264]⟩
abbrev S11264x1 : Shape := ⟨2, ![11264, 1]⟩
abbrev S4x2048x11264 : Shape := ⟨3, ![4, 2048, 11264]⟩
abbrev S4x2048x5632 : Shape := ⟨3, ![4, 2048, 5632]⟩
abbrev S2048 : Shape := ⟨1, ![2048]⟩
abbrev S2048x1 : Shape := ⟨2, ![2048, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S11264x2048, .f32⟩
  | .hbm, ⟨29, _⟩ => ⟨S_, .f32⟩
  | .hbm, ⟨30, _⟩ => ⟨S11264, .f32⟩
  | .hbm, ⟨31, _⟩ => ⟨S11264x1, .f32⟩
  | .hbm, ⟨32, _⟩ => ⟨S_, .f32⟩
  | .hbm, ⟨33, _⟩ => ⟨S11264x1, .f32⟩
  | .hbm, ⟨34, _⟩ => ⟨S11264x1, .f32⟩
  | .hbm, ⟨35, _⟩ => ⟨S_, .f32⟩
  | .hbm, ⟨36, _⟩ => ⟨S11264x1, .f32⟩
  | .hbm, ⟨37, _⟩ => ⟨S11264x1, .f32⟩
  | .hbm, ⟨38, _⟩ => ⟨S11264x2048, .f32⟩
  | .hbm, ⟨39, _⟩ => ⟨S11264x2048, .f32⟩
  | .hbm, ⟨40, _⟩ => ⟨S11264x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S11264x2048, .f32⟩
  | .hbm, ⟨45, _⟩ => ⟨S11264x2048, .f32⟩
  | .hbm, ⟨46, _⟩ => ⟨S_, .f32⟩
  | .hbm, ⟨47, _⟩ => ⟨S11264x2048, .f32⟩
  | .hbm, ⟨48, _⟩ => ⟨S11264x2048, .f32⟩
  | .hbm, ⟨49, _⟩ => ⟨S11264x2048, .f32⟩
  | .hbm, ⟨50, _⟩ => ⟨S11264x2048, .f32⟩
  | .hbm, ⟨51, _⟩ => ⟨S11264x2048, .f32⟩
  | .hbm, ⟨52, _⟩ => ⟨S11264x2048, .f32⟩
  | .hbm, ⟨53, _⟩ => ⟨S4x2048x11264, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S_, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S4x2048x5632, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x5632, .f32⟩
  | .hbm, ⟨77, _⟩ => ⟨S4x2048x5632, .f32⟩
  | .hbm, ⟨78, _⟩ => ⟨S4x2048x5632, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4x2048x5632, .f32⟩
  | .hbm, ⟨83, _⟩ => ⟨S4x2048x5632, .f32⟩
  | .hbm, ⟨84, _⟩ => ⟨S_, .f32⟩
  | .hbm, ⟨85, _⟩ => ⟨S4x2048x5632, .f32⟩
  | .hbm, ⟨86, _⟩ => ⟨S4x2048x5632, .f32⟩
  | .hbm, ⟨87, _⟩ => ⟨S4x2048x5632, .f32⟩
  | .hbm, ⟨88, _⟩ => ⟨S4x2048x5632, .f32⟩
  | .hbm, ⟨89, _⟩ => ⟨S4x2048x5632, .f32⟩
  | .hbm, ⟨90, _⟩ => ⟨S4x2048x5632, .f32⟩
  | .hbm, ⟨91, _⟩ => ⟨S2048x5632, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x5632, .f32⟩
  | .hbm, ⟨102, _⟩ => ⟨S2048x5632, .f32⟩
  | .hbm, ⟨103, _⟩ => ⟨S2048x5632, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S2048x5632, .f32⟩
  | .hbm, ⟨108, _⟩ => ⟨S2048x5632, .f32⟩
  | .hbm, ⟨109, _⟩ => ⟨S_, .f32⟩
  | .hbm, ⟨110, _⟩ => ⟨S2048x5632, .f32⟩
  | .hbm, ⟨111, _⟩ => ⟨S2048x5632, .f32⟩
  | .hbm, ⟨112, _⟩ => ⟨S2048x5632, .f32⟩
  | .hbm, ⟨113, _⟩ => ⟨S2048x5632, .f32⟩
  | .hbm, ⟨114, _⟩ => ⟨S2048x5632, .f32⟩
  | .hbm, ⟨115, _⟩ => ⟨S2048x5632, .f32⟩
  | .hbm, ⟨116, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call4_v0 : Ref sig .tc := ⟨.hbm, 56, rfl⟩
abbrev main_call4_v1 : Ref sig .tc := ⟨.hbm, 57, rfl⟩
abbrev main_call4_cst : Ref sig .tc := ⟨.hbm, 58, rfl⟩
abbrev main_call4_v2 : Ref sig .tc := ⟨.hbm, 59, rfl⟩
abbrev main_call4_v3 : Ref sig .tc := ⟨.hbm, 60, rfl⟩
abbrev main_call4_cst_0 : Ref sig .tc := ⟨.hbm, 61, rfl⟩
abbrev main_call4_v4 : Ref sig .tc := ⟨.hbm, 62, rfl⟩
abbrev main_call4_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_12 : Ref sig .tc := ⟨.hbm, 79, rfl⟩
abbrev main_cst_13 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_14 : Ref sig .tc := ⟨.hbm, 92, rfl⟩
abbrev main_v51 : Ref sig .tc := ⟨.hbm, 93, rfl⟩
abbrev main_v52 : Ref sig .tc := ⟨.hbm, 94, rfl⟩
abbrev main_cst_15 : Ref sig .tc := ⟨.hbm, 95, rfl⟩
abbrev main_v53 : Ref sig .tc := ⟨.hbm, 96, rfl⟩
abbrev main_v54 : Ref sig .tc := ⟨.hbm, 97, rfl⟩
abbrev main_cst_16 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_17 : Ref sig .tc := ⟨.hbm, 104, rfl⟩
abbrev main_cst_18 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S11264x2048_S11264_d1 : S11264x2048.ReducesTo [1] S11264
  bcast_S11264_S11264x1_0 : S11264.BroadcastsInDim S11264x1 (![0] : Fin 1 → Fin S11264x1.rank)
  bcast_S_S11264x1 : S_.BroadcastsInDim S11264x1 (![] : Fin 0 → Fin S11264x1.rank)
  bcast_S11264x1_S11264x2048_0_1 : S11264x1.BroadcastsInDim S11264x2048 (![0, 1] : Fin 2 → Fin S11264x2048.rank)
  bcast_S_S11264x2048 : S_.BroadcastsInDim S11264x2048 (![] : Fin 0 → Fin S11264x2048.rank)
  slices_S4x2048x11264_S4x2048x5632_0_0_0 : S4x2048x11264.Slices ![0, 0, 0] S4x2048x5632
  slices_S4x2048x11264_S4x2048x5632_0_0_5632 : S4x2048x11264.Slices ![0, 0, 5632] S4x2048x5632
  bcast_S_S4x2048x5632 : S_.BroadcastsInDim S4x2048x5632 (![] : Fin 0 → Fin S4x2048x5632.rank)
  reducesTo_S4x2048x5632_S4x2048_d2 : S4x2048x5632.ReducesTo [2] S4x2048
  bcast_S4x2048x1_S4x2048x5632_0_1_2 : S4x2048x1.BroadcastsInDim S4x2048x5632 (![0, 1, 2] : Fin 3 → Fin S4x2048x5632.rank)
  reducesTo_S2048x5632_S2048_d1 : S2048x5632.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x5632_0_1 : S2048x1.BroadcastsInDim S2048x5632 (![0, 1] : Fin 2 → Fin S2048x5632.rank)
  bcast_S_S2048x5632 : S_.BroadcastsInDim S2048x5632 (![] : Fin 0 → Fin S2048x5632.rank)
  dot_S4x2048x2048_S11264x2048_S4x2048x11264_2_1_01_0_n_n_wf : DotDims.WF S4x2048x2048 S11264x2048 S4x2048x11264 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S11264x2048_S4x2048x11264_2_1_01_0_n_n : DotDims S4x2048x2048 S11264x2048 S4x2048x11264 where
  lhsContracting := [2]
  rhsContracting := [1]
  lhsNonContracting := [0, 1]
  rhsNonContracting := [0]
  lhsBatch := []
  rhsBatch := []
  wf := dot_S4x2048x2048_S11264x2048_S4x2048x11264_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.K.Up.Base.lean ====
/-
  The first kernel region (the gate/up projection with the per-row running maximum): what its runs share.
  At the first inner tile of each row block the body quantizes the row block into a scratch and clears
  the running maximum; at every tile it multiplies, applies the gated activation, stores the tile and
  raises the running maximum; at the last tile it emits the row scale. Which of these a grid point does
  is decided by its position modulo the 22 inner tiles.
-/
import proofs.«162558_j39865886442066_2_alg».proof.Proof.Gen.Kernel.Launch
import proofs.«162558_j39865886442066_2_alg».proof.Proof.Gen.Kernel.Skeleton
import proofs.«162558_j39865886442066_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition: the inner coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 22 = 0 :=
  (by decide +kernel : ∀ t : Fin grid0.N, cond0_0 (grid0.coords t) ↔ t.val % 22 = 0)
/-- The last-tile condition: the inner coordinate is 21. -/
abbrev cond0_1 (i : grid0.Coords) : Prop := k0_cond2 i = 1#1
theorem hcond0_1 : ∀ t : Fin cfg0.N, cond0_1 (grid0.coords t) ↔ t.val % 22 = 21 :=
  (by decide +kernel : ∀ t : Fin grid0.N, cond0_1 (grid0.coords t) ↔ t.val % 22 = 21)

/-- The inputs and the tile output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The scale output is idle, and not written back, away from the last tile; live at it. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each output window, through which its contents are stated. -/
abbrev VO0_3 : View sig .tc .vmem S1024x256 .bf16 := (Memref.whole cc0_stg3_0 : Memref sig .tc .vmem S1024x256 .bf16).view
abbrev VO0_4 : View sig .tc .vmem S1024x1 .f32 := (Memref.whole cc0_stg4_0 : Memref sig .tc .vmem S1024x1 .f32).view
/-- Each window's current staging memref at a point, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two scratch operands (the quantized row block, the running maximum), whole scoped buffers. -/
abbrev scM0_0 : Memref sig .tc .vmem S1024x2048 .bf16 := Memref.whole cc0_scratch0
abbrev scM0_1 : Memref sig .tc .vmem S1024x1 .f32 := Memref.whole cc0_scratch1
abbrev VS0_0 : View sig .tc .vmem S1024x2048 .bf16 := scM0_0.view
abbrev VS0_1 : View sig .tc .vmem S1024x1 .f32 := scM0_1.view

end Cert.Kernel.Hand

end
-- ==== Proof.K.Up.RunA.lean ====
/-
  The gate/up kernel's body run at a first inner tile.
-/
import proofs.«162558_j39865886442066_2_alg».proof.Proof.K.Up.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output, in the quantized-rows scratch and in the running-maximum scratch, with the
    body's triple on whole staging memrefs: the inputs are handed back as found, the scale output untouched. -/
noncomputable def kernelRun0_A (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, [], ?_, ?_, fun xi4 E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; iexact HS0
    iexists _; iexact HS1

end Cert.Kernel.Hand

end
-- ==== Proof.K.Up.RunB.lean ====
/-
  The gate/up kernel's body run at an inner tile that is neither first nor last.
-/
import proofs.«162558_j39865886442066_2_alg».proof.Proof.K.Up.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output and in the running-maximum scratch, with the
    body's triple on whole staging memrefs: the inputs are handed back as found, the scale output untouched, the quantized-rows scratch untouched. -/
noncomputable def kernelRun0_B (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, [], [], ?_, fun xi4 E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; isplitr; · ipureintro; exact harg7.read_unread _
      iexact HS0
    iexists _; iexact HS1

end Cert.Kernel.Hand

end
-- ==== Proof.K.Up.RunC.lean ====
/-
  The gate/up kernel's body run at a last inner tile.
-/
import proofs.«162558_j39865886442066_2_alg».proof.Proof.K.Up.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output, in the scale output and in the running-maximum scratch, with the
    body's triple on whole staging memrefs: the inputs are handed back as found, the quantized-rows scratch untouched. -/
noncomputable def kernelRun0_C (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, ?_, [], ?_, fun E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; iexact H4
    isplitl [HS0]
    · iexists _; isplitr; · ipureintro; exact harg7.read_unread _
      iexact HS0
    iexists _; iexact HS1

end Cert.Kernel.Hand

end
-- ==== Proof.K.Up.Frame.lean ====
/-
  The first kernel region at any entry contents of the unscoped buffers: what its two output blocks and
  its two scratch buffers hold after each grid point, the proof data naming them (the weight array is
  read through two windows, each holding half of its share), and the body obligation at every point.
-/
import proofs.«162558_j39865886442066_2_alg».proof.Proof.K.Up.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/
theorem cover0_A_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x256.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S1024x256.size (by sl_kernel_rfl) y
def out0_A_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x256 .bf16 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- Away from the last tile nothing is stored into the scale block: a placeholder nothing consults. -/
def out0_A_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)
theorem scover0_A_0 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x2048.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1024x2048.size (by sl_kernel_rfl) y
def sout0_A_0 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
theorem scover0_A_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1.size (by sl_kernel_rfl) y
def sout0_A_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

theorem cover0_B_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) (y : S1024x256.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1024x256.size (by sl_kernel_rfl) y
def out0_B_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x256 .bf16 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)
def out0_B_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)
theorem scover0_B_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1024x1.size (by sl_kernel_rfl) y
def sout0_B_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem cover0_C_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x256.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x256.size (by sl_kernel_rfl) y
def out0_C_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x256 .bf16 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1.size (by sl_kernel_rfl) y
def out0_C_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)
theorem scover0_C_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1.size (by sl_kernel_rfl) y
def sout0_C_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the buffers hold after each point -/

/-- After the body at position `n`: the tile block, the scale block, the quantized-rows scratch and the
    running-maximum scratch. The scratch buffers are carried: a later tile starts from what the point before left. -/
def outsAt0 (c : Dev nD) : (n : ℕ) → n < cfg0.N → Vec F S1024x256 .bf16 × Vec F S1024x1 .f32 × Vec F S1024x2048 .bf16 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 22 = 0 then
      if h1 : (n + 1) % 22 = 21 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 22 = 21 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, (outsAt0 c n (Nat.lt_of_succ_lt hn)).2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 22 = 0) (h1 : ¬t.val % 22 = 21) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 22 = 0) (h1 : ¬t.val % 22 = 21) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 22 = 0) (h1 : t.val % 22 = 21) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.2.1, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the core that belong to the other kernel, each at some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther (F := F) c) ∗ (∃ r, prngReg c r)) := by
  unfold Pipeline.ΦA restOther; rw [scopedRest0_eq]; simp only [scM0_0, scM0_1, owns_whole]; try rfl

/-- The region invariant before position `n`: the class's before the first point; afterwards the two scratch
    buffers at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther (F := F) c) ∗ (∃ r, prngReg c r)) := by
  cases n with
  | zero => exact absurd rfl hz
  | succ n => rfl

/-! ## The proof data -/

/-- The proof data of the first pipeline on core `c`: the arrays as the region finds them; after the body each input's
    buffer at its block, the outputs' as `outsAt0` says; the invariant `PhiS0`; nothing owed; the weight array's two windows
    at half its share each, the row array's window at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.K.Up.Body.lean ====
/-
  The body obligation of the first kernel region: at every grid point the body, handed the input blocks,
  the output buffers and the two scratch buffers as the proof data says, leaves them as the proof data says.
-/
import proofs.«162558_j39865886442066_2_alg».proof.Proof.K.Up.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 6400000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 176 := lt_of_lt_of_eq t.isLt (show cfg0.N = 176 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h0 : t.val % 22 = 0
  · by_cases h1 : t.val % 22 = 21
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _)
        iexists _; iexact H4
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        isplitl [HS1]; · iexists _; iexact HS1
        iintro ⟨H0, H1, H2, ⟨%e3, H3⟩, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _)
        iexists _; iexact H4
  · have hz : t.val ≠ 0 := fun h => h0 (by rw [h])
    by_cases h1 : t.val % 22 = 21
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, ⟨%es1, HS1⟩⟩
      isplitl [HS0 HS1 HR Hg]
      · isplitl [HS0 HS1 HR]
        · isplitl [HS0]
          · iexact HS0
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, HS0, ⟨%es1, HS1⟩⟩
      isplitl [HS0 HS1 HR Hg]
      · isplitl [HS0 HS1 HR]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      iexists _; iexact H4

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Up.Arrays.lean ====
/-
  The first kernel region reads the weight array through two windows. The four distinct buffers behind its
  five windows, each whole, are dealt to the windows with the weight array's share halved between the two;
  and the windows' arrays at the region's end are put back together, the two halves rejoined.
-/
import proofs.«162558_j39865886442066_2_alg».proof.Proof.K.Up.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first region's windows. -/
theorem arrRefs0 : Finset.univ.image (Pipeline.arrRef spec0) = ({main_v0, main_arg1, main_v1_0, main_v1_1} : Finset (Ref sig .tc)) := by decide

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_v1_0) ↦{fullShare} W main_v1_0) ∗ (((c : Thread nD τ).loc main_v1_1) ↦{fullShare} W main_v1_1)) := by
  unfold Pipeline.arrBufs
  rw [arrRefs0, bigSep_insert (by decide), bigSep_insert (by decide), bigSep_insert (by decide), bigSep_singleton]
  rfl

/-- One window's array, a whole buffer, as a plain points-to at the window's share. -/
theorem arr0_w (c : Dev nD) (G : (w : Fin cfg0.W) → Buf (Elt F) ((cfg0.win w).arr.view.loc (c : Thread nD τ))) (w : Fin cfg0.W) :
    ((cfg0.win w).arr.view.loc (c : Thread nD τ) ↦[(cfg0.win w).arr.view.set]{(dat0 V c).share w} G w : sProp 𝕄)
      = (((c : Thread nD τ).loc (Pipeline.arrRef spec0 w)) ↦{(dat0 V c).share w} G w) := by
  rw [(arr_whole0 w).set_eq_univ]

/-- The windows' arrays at contents `G`, one by one: the weight array twice, at the two halves of its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2)
          ∗ (((c : Thread nD τ).loc main_v1_0) ↦{fullShare} G 3) ∗ (((c : Thread nD τ).loc main_v1_1) ↦{fullShare} G 4)) := by
  unfold Dat.arrays
  rw [bigSep_congr (fun w _ => arr0_w V c G w), bigSep_W0]
  rfl

/-- ENTRY: the buffers whole at `V` are the windows' arrays at the proof data's entry contents. -/
theorem arrays0_of_arrBufs (c : Dev nD) :
    (Pipeline.arrBufs (Ix := Unit) (Name := ℕ) (U := UR sig nD τ) (Lvl := ℕ) spec0 c (V c) : sProp 𝕄) ⊢ (dat0 V c).arrays (dat0 V c).A := by
  rw [arrBufs0_eq, arrays0_eq]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

/-- EXIT: the windows' arrays at their final contents are the buffers whole at any contents `W` that agree with `V`
    on the two inputs and hold the two outputs' final arrays. -/
theorem arrBufs_of_arrays0 (c : Dev nD) (W : (b : Ref sig .tc) → Buf (Elt F) ((c : Thread nD τ).loc b))
    (h0 : W main_v0 = V c main_v0) (h1 : W main_arg1 = V c main_arg1)
    (h3 : W main_v1_0 = (dat0 V c).arrAt 3 cfg0.N) (h4 : W main_v1_1 = (dat0 V c).arrAt 4 cfg0.N) :
    ((dat0 V c).arrays ((dat0 V c).arrAt · cfg0.N) : sProp 𝕄) ⊢ Pipeline.arrBufs (Ix := Unit) (Name := ℕ) (U := UR sig nD τ) (Lvl := ℕ) spec0 c W := by
  rw [arrBufs0_eq, arrays0_eq, h0, h1, h3, h4, (dat0 V c).arrAt_in 0 rfl, (dat0 V c).arrAt_in 1 rfl, (dat0 V c).arrAt_in 2 rfl]
  iintro ⟨H0, H1l, H1r, H3, H4⟩
  isplitl [H0]; · iexact H0
  isplitl [H1l H1r]
  · iapply (pointsTo_share (PosShare.mem_left_op_right fullShare)).2
    isplitl [H1l]; · iexact H1l
    iexact H1r
  isplitl [H3]; · iexact H3
  iexact H4

/-- After any point but the first the invariant gives the class invariant back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 176 := N_0; omega)

end Cert.Kernel.Hand

end
-- ==== Proof.K.Down.Base.lean ====
/-
  The second kernel region (the down projection accumulated over the inner tiles): what its runs share.
  The body resets its output block to zero at the first inner tile of each row block and adds one
  tile's product at every inner tile; which of the two a grid point does is decided by its position
  modulo the number of inner tiles.
-/
import proofs.«162558_j39865886442066_2_alg».proof.Proof.Gen.Kernel.Launch
import proofs.«162558_j39865886442066_2_alg».proof.Proof.Gen.Kernel.Skeleton
import proofs.«162558_j39865886442066_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition of the down kernel: the inner coordinate is zero. -/
abbrev cond1_0 (i : grid1.Coords) : Prop := (Scalar.cmpi .ne (Scalar.extui (Scalar.cmpi .eq (BitVec.ofNat 32 (i 1).val) 0#32)) 0#32) = 1#1
/-- It holds exactly at the points whose position is a multiple of the 11 inner tiles. -/
theorem hcond1_0 : ∀ t : Fin cfg1.N, cond1_0 (grid1.coords t) ↔ t.val % 11 = 0 :=
  (by decide +kernel : ∀ t : Fin grid1.N, cond1_0 (grid1.coords t) ↔ t.val % 11 = 0)

/-- One staging buffer of the output window, through which its contents are stated. -/
abbrev VO1_3 : View sig .tc .vmem S1024x2048 .f32 := (Memref.whole cc1_stg3_0 : Memref sig .tc .vmem S1024x2048 .f32).view
/-- Each window's current staging memref at a point, as the pipeline passes it, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.Kernel.Hand

end
-- ==== Proof.K.Down.RunA.lean ====
/-
  The down kernel's body run at a first inner tile (the output block is reset, then one tile's product added).
-/
import proofs.«162558_j39865886442066_2_alg».proof.Proof.K.Down.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output block when it resets it first, with the body's triple on whole
    staging memrefs: the inputs are handed back as found, the output with those pieces written. -/
noncomputable def kernelRun1_A (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__down_matmul_kernel i arg2 harg2 arg3 harg3 arg4 harg4 arg5 harg5) K } := by
  refine ⟨?_, fun E K => ?run⟩
  case run =>
    simp only [cc1__down_matmul_kernel_eq_skeleton]; unfold cc1__down_matmul_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Down.RunB.lean ====
/-
  The down kernel's body run at a later inner tile (one tile's product added to what the point before left).
-/
import proofs.«162558_j39865886442066_2_alg».proof.Proof.K.Down.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output block over its running contents, with the body's triple on whole
    staging memrefs: the inputs are handed back as found, the output with those pieces written. -/
noncomputable def kernelRun1_B (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__down_matmul_kernel i arg2 harg2 arg3 harg3 arg4 harg4 arg5 harg5) K } := by
  refine ⟨?_, fun E K => ?run⟩
  case run =>
    simp only [cc1__down_matmul_kernel_eq_skeleton]; unfold cc1__down_matmul_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Down.Frame.lean ====
/-
  The second kernel region at any entry contents of the unscoped buffers: what its output block holds
  after each grid point (reset at a first inner tile, else the point before's contents plus one tile's
  product), the proof data naming it, and the body obligation at every point.
-/
import proofs.«162558_j39865886442066_2_alg».proof.Proof.K.Down.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The pieces of either case tile the output block, so they cover it. -/
theorem cover1_A_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) (y : S1024x2048.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1024x2048.size (by sl_kernel_rfl) y
/-- What a first inner tile leaves in the output block. -/
def out1_A_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) : Vec F S1024x2048 .f32 :=
  VO1_3.read (Elt F) (VO1_3.writes (Elt F) VO1_3.junk (kernelRun1_A c i arg2 harg2 arg3 harg3 arg4 harg4 arg5 harg5 hc0 x0 x1 x2).1)
theorem cover1_B_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) (y : S1024x2048.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1024x2048.size (by sl_kernel_rfl) y
/-- What a later inner tile leaves in the output block, over what the point before left. -/
def out1_B_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) : Vec F S1024x2048 .f32 :=
  VO1_3.read (Elt F) (VO1_3.writes (Elt F) VO1_3.junk (kernelRun1_B c i arg2 harg2 arg3 harg3 arg4 harg4 arg5 harg5 hc0 x0 x1 x2 xo3).1)

/-- The accumulation: what the output block holds after the body at position `n`. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 11 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 11 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 11 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body each
    input's buffer at its block and the output's at the accumulation; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later inner tile the output's buffer holds what the body left at the point before: it was not written back between. -/
theorem before1_3_B (c : Dev nD) (t : Fin cfg1.N) (h0 : ¬t.val % 11 = 0) (d) :
    (dat1 V c).before 3 t d = outsAt1 V c (t.val - 1) (Nat.lt_of_le_of_lt (Nat.sub_le _ _) t.isLt) := by
  have hN : t.val < 88 := lt_of_lt_of_eq t.isLt (show cfg1.N = 88 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 88 := lt_of_lt_of_eq t.isLt (show cfg1.N = 88 from N_1)
  by_cases h0 : t.val % 11 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as a run of its segments: the host stretches and the two kernel regions in order, the
  contents of every buffer that outlives a kernel named at each boundary. Every execution ends, nothing
  faults, and at the end each such buffer holds the last boundary's contents.
-/
import proofs.«162558_j39865886442066_2_alg».proof.Proof.K.Up.Body
import proofs.«162558_j39865886442066_2_alg».proof.Proof.K.Up.Arrays
import proofs.«162558_j39865886442066_2_alg».proof.Proof.K.Down.Frame
import proofs.«162558_j39865886442066_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the reshape of the input into rows. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first kernel: its two results at what its write-backs leave. -/
def W2 (c : Dev nD) : Valuation τ sig (Elt F) :=
  Function.update (Function.update (W1 m c) main_v1_0 ((dat0 (U1 m) c).arrAt 3 cfg0.N)) main_v1_1 ((dat0 (U1 m) c).arrAt 4 cfg0.N)
abbrev U2 : (c : Dev nD) → (b : Ref sig .tc) → Buf (Elt F) ((c : Thread nD τ).loc b) := fun c b => W2 m c b
/-- After the host's rounding of the second weight matrix, stretch by stretch. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev U7 : (c : Dev nD) → (b : Ref sig .tc) → Buf (Elt F) ((c : Thread nD τ).loc b) := fun c b => W7 m c b
/-- After the second kernel: its result at what its write-backs leave. -/
def W8 (c : Dev nD) : Valuation τ sig (Elt F) :=
  Function.update (W7 m c) main_v16 ((dat1 (U7 m) c).arrAt 3 cfg1.N)
abbrev U8 : (c : Dev nD) → (b : Ref sig .tc) → Buf (Elt F) ((c : Thread nD τ).loc b) := fun c b => W8 m c b
/-- After the final reshape. -/
abbrev W9 (c : Dev nD) : Valuation τ sig (Elt F) := StableHlo.after hostOps2 (W8 m c)

theorem W2_v1_0 (c : Dev nD) : W2 m c main_v1_0 = (dat0 (U1 m) c).arrAt 3 cfg0.N := by
  unfold W2
  rw [Function.update_of_ne (StableHlo.devRef_ne_of_ne (by decide : main_v1_0 ≠ main_v1_1) : (Proc.devRef .tc main_v1_0 : DevRef τ sig) ≠ Proc.devRef .tc main_v1_1), Function.update_self]
theorem W2_v1_1 (c : Dev nD) : W2 m c main_v1_1 = (dat0 (U1 m) c).arrAt 4 cfg0.N := by
  unfold W2; rw [Function.update_self]
theorem W2_of (c : Dev nD) (r : Ref sig .tc) (h : r ∉ ([main_v1_0, main_v1_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W8_v16 (c : Dev nD) : W8 m c main_v16 = (dat1 (U7 m) c).arrAt 3 cfg1.N := by
  unfold W8; rw [Function.update_self]
theorem W8_of (c : Dev nD) (r : Ref sig .tc) (h : r ∉ ([main_v16] : List (Ref sig .tc))) : W8 m c r = W7 m c r := by
  simp only [W8, Function.update_of_ne (StableHlo.devRef_ne_of_ne (List.ne_of_not_mem_cons h) : (Proc.devRef .tc r : DevRef τ sig) ≠ Proc.devRef .tc main_v16)]

/-- Off the first kernel's arrays nothing changes across it. -/
theorem hrest0 (c : Dev nD) : ∀ b, b ∉ Finset.univ.image (Pipeline.arrRef spec0) → U2 m c b = U1 m c b :=
  fun b hb => W2_of m c b (fun h => hb (by
    rw [arrRefs0]
    simp only [List.mem_cons, List.mem_nil_iff, or_false] at h
    rcases h with rfl | rfl <;> decide))
/-- At the second kernel's exit each of its arrays holds what the pipeline leaves, every other buffer what it held. -/
theorem hF1 (c : Dev nD) (w : Fin cfg1.W) : (dat1 (U7 m) c).arrAt w cfg1.N = U8 m c (Pipeline.arrRef spec1 w) := by
  match w with
  | ⟨0, _⟩ => exact ((dat1 (U7 m) c).arrAt_in 0 rfl _).trans ((A_eq1 (U7 m) c 0).trans (W8_of m c main_v1_0 (by decide)).symm)
  | ⟨1, _⟩ => exact ((dat1 (U7 m) c).arrAt_in 1 rfl _).trans ((A_eq1 (U7 m) c 1).trans (W8_of m c main_v1_1 (by decide)).symm)
  | ⟨2, _⟩ => exact ((dat1 (U7 m) c).arrAt_in 2 rfl _).trans ((A_eq1 (U7 m) c 2).trans (W8_of m c main_v15 (by decide)).symm)
  | ⟨3, _⟩ => exact (W8_v16 m c).symm
theorem hrest1 (c : Dev nD) : ∀ b, b ∉ Finset.univ.image (Pipeline.arrRef spec1) → U8 m c b = U7 m c b :=
  fun b hb => W8_of m c b (fun h => hb (by
    simp only [List.mem_cons, List.mem_nil_iff, or_false] at h
    subst h; exact Finset.mem_image.mpr ⟨3, Finset.mem_univ _, rfl⟩))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first kernel region: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit : (unscopedBufs (Ix := Unit) (Name := ℕ) (U := UR sig nD τ) (Lvl := ℕ) c (U1 m c) : sProp 𝕄)
        ⊢ iprop((dat0 (U1 m) c).arrays (dat0 (U1 m) c).A ∗ Pipeline.unscopedRest (Ix := Unit) (Name := ℕ) (U := UR sig nD τ) (Lvl := ℕ) spec0 c (U1 m c)) := by
      rw [Pipeline.unscopedBufs_split₀ cfgs 0 winFacts₀0.arr_unscoped c (U1 m c)]
      exact sep_mono (arrays0_of_arrBufs (U1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin : iprop((dat0 (U1 m) c).arrays ((dat0 (U1 m) c).arrAt · cfg0.N) ∗ Pipeline.unscopedRest (Ix := Unit) (Name := ℕ) (U := UR sig nD τ) (Lvl := ℕ) spec0 c (U1 m c))
        ⊢ (unscopedBufs (Ix := Unit) (Name := ℕ) (U := UR sig nD τ) (Lvl := ℕ) c (U2 m c) : sProp 𝕄) := by
      rw [Pipeline.unscopedBufs_split₀ cfgs 0 winFacts₀0.arr_unscoped c (U2 m c)]
      refine sep_mono (arrBufs_of_arrays0 (U1 m) c (U2 m c) (W2_of m c main_v0 (by decide)) (W2_of m c main_arg1 (by decide)) (W2_v1_0 m c) (W2_v1_1 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- The second kernel region: entered from every unscoped buffer at `W7`, left at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN. From any memory with zero counters every weakly fair execution of the program terminates, nothing
    faulting, and every buffer that outlives a kernel ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Hand

end
-- ==== Proof.K.Frames.lean ====
/-
  The frame: every execution of the program ends, nothing faults, and the three argument arrays end as launched —
  no host operation writes an argument, and the kernels only read them.
-/
import proofs.«162558_j39865886442066_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no segment writes holds its launch contents at the end. -/
theorem W9_kept (c : Dev nD) (r : Ref sig .tc) (h0 : r ∉ hostOps0_W) (hA : r ∉ ([main_v1_0, main_v1_1] : List (Ref sig .tc)))
    (h1 : r ∉ hostOps1_W) (h11 : r ∉ hostOps1_1_W) (h12 : r ∉ hostOps1_2_W) (h13 : r ∉ hostOps1_3_W) (h14 : r ∉ hostOps1_4_W)
    (hB : r ∉ ([main_v16] : List (Ref sig .tc))) (h2 : r ∉ hostOps2_W) :
    W9 m c r = m ((c : Thread nD τ).loc r) :=
  (StableHlo.after_of_writes_sub hostOps2 _ hostOps2_writes h2).trans <|
  (W8_of m c r hB).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of m c r hA).trans <|
  (StableHlo.after_of_writes_sub hostOps0 _ hostOps0_writes h0).trans rfl

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W9_kept m c main_arg0 (by decide) (by decide) (by decide) (by decide) (by decide) (by decide) (by decide) (by decide) (by decide)),
     (h c _ (mem_uc main_arg1 (by decide))).trans (W9_kept m c main_arg1 (by decide) (by decide) (by decide) (by decide) (by decide) (by decide) (by decide) (by decide) (by decide)),
     (h c _ (mem_uc main_arg2 (by decide))).trans (W9_kept m c main_arg2 (by decide) (by decide) (by decide) (by decide) (by decide) (by decide) (by decide) (by decide) (by decide))⟩)
    (run_all m ρ)

end Cert.Kernel.Hand

end
-- ==== Proof.Up.Base.lean ====
/-
  The first kernel region (the gate/up projection with the per-row running maximum): what its runs share.
  At the first inner tile of each row block the body quantizes the row block into a scratch and clears
  the running maximum; at every tile it multiplies, applies the gated activation, stores the tile and
  raises the running maximum; at the last tile it emits the row scale. Which of these a grid point does
  is decided by its position modulo the 22 inner tiles.
-/
import proofs.«162558_j39865886442066_2_alg».proof.Proof.Gen.KernelIdeal.Launch
import proofs.«162558_j39865886442066_2_alg».proof.Proof.Gen.KernelIdeal.Skeleton
import proofs.«162558_j39865886442066_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-tile condition: the inner coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 22 = 0 :=
  (by decide +kernel : ∀ t : Fin grid0.N, cond0_0 (grid0.coords t) ↔ t.val % 22 = 0)
/-- The last-tile condition: the inner coordinate is 21. -/
abbrev cond0_1 (i : grid0.Coords) : Prop := k0_cond2 i = 1#1
theorem hcond0_1 : ∀ t : Fin cfg0.N, cond0_1 (grid0.coords t) ↔ t.val % 22 = 21 :=
  (by decide +kernel : ∀ t : Fin grid0.N, cond0_1 (grid0.coords t) ↔ t.val % 22 = 21)

/-- The inputs and the tile output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The scale output is idle, and not written back, away from the last tile; live at it. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each output window, through which its contents are stated. -/
abbrev VO0_3 : View sig .tc .vmem S1024x256 .bf16 := (Memref.whole cc0_stg3_0 : Memref sig .tc .vmem S1024x256 .bf16).view
abbrev VO0_4 : View sig .tc .vmem S1024x1 .f32 := (Memref.whole cc0_stg4_0 : Memref sig .tc .vmem S1024x1 .f32).view
/-- Each window's current staging memref at a point, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two scratch operands (the quantized row block, the running maximum), whole scoped buffers. -/
abbrev scM0_0 : Memref sig .tc .vmem S1024x2048 .bf16 := Memref.whole cc0_scratch0
abbrev scM0_1 : Memref sig .tc .vmem S1024x1 .f32 := Memref.whole cc0_scratch1
abbrev VS0_0 : View sig .tc .vmem S1024x2048 .bf16 := scM0_0.view
abbrev VS0_1 : View sig .tc .vmem S1024x1 .f32 := scM0_1.view

end Cert.KernelIdeal.Hand

end
-- ==== Proof.Up.RunA.lean ====
/-
  The gate/up kernel's body run at a first inner tile.
-/
import proofs.«162558_j39865886442066_2_alg».proof.Proof.Up.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output, in the quantized-rows scratch and in the running-maximum scratch, with the
    body's triple on whole staging memrefs: the inputs are handed back as found, the scale output untouched. -/
noncomputable def kernelRun0_A (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, [], ?_, ?_, fun xi4 E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; iexact HS0
    iexists _; iexact HS1

end Cert.KernelIdeal.Hand

end
-- ==== Proof.Up.RunB.lean ====
/-
  The gate/up kernel's body run at an inner tile that is neither first nor last.
-/
import proofs.«162558_j39865886442066_2_alg».proof.Proof.Up.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output and in the running-maximum scratch, with the
    body's triple on whole staging memrefs: the inputs are handed back as found, the scale output untouched, the quantized-rows scratch untouched. -/
noncomputable def kernelRun0_B (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, [], [], ?_, fun xi4 E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; isplitr; · ipureintro; exact harg7.read_unread _
      iexact HS0
    iexists _; iexact HS1

end Cert.KernelIdeal.Hand

end
-- ==== Proof.Up.RunC.lean ====
/-
  The gate/up kernel's body run at a last inner tile.
-/
import proofs.«162558_j39865886442066_2_alg».proof.Proof.Up.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the tile output, in the scale output and in the running-maximum scratch, with the
    body's triple on whole staging memrefs: the inputs are handed back as found, the quantized-rows scratch untouched. -/
noncomputable def kernelRun0_C (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) :
    Σ' (L3 : List (View.Piece (Elt F) S1024x256 .bf16)) (L4 : List (View.Piece (Elt F) S1024x1 .f32)) (LS0 : List (View.Piece (Elt F) S1024x2048 .bf16)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_swiglu_kernel i arg2 harg2 arg3 harg3 arg4 harg4 arg5 harg5 arg6 harg6 arg7 harg7 arg8 harg8) K } := by
  refine ⟨?_, ?_, [], ?_, fun E K => ?run⟩
  case run =>
    simp only [cc0__gate_up_swiglu_kernel_eq_skeleton]; unfold cc0__gate_up_swiglu_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; iexact H4
    isplitl [HS0]
    · iexists _; isplitr; · ipureintro; exact harg7.read_unread _
      iexact HS0
    iexists _; iexact HS1

end Cert.KernelIdeal.Hand

end
-- ==== Proof.Up.Frame.lean ====
/-
  The first kernel region at any entry contents of the unscoped buffers: what its two output blocks and
  its two scratch buffers hold after each grid point, the proof data naming them (the weight array is
  read through two windows, each holding half of its share), and the body obligation at every point.
-/
import proofs.«162558_j39865886442066_2_alg».proof.Proof.Up.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/
theorem cover0_A_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x256.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S1024x256.size (by sl_kernel_rfl) y
def out0_A_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x256 .bf16 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- Away from the last tile nothing is stored into the scale block: a placeholder nothing consults. -/
def out0_A_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)
theorem scover0_A_0 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x2048.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1024x2048.size (by sl_kernel_rfl) y
def sout0_A_0 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)
theorem scover0_A_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) (y : S1024x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S1024x1.size (by sl_kernel_rfl) y
def sout0_A_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

theorem cover0_B_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) (y : S1024x256.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S1024x256.size (by sl_kernel_rfl) y
def out0_B_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x256 .bf16 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)
def out0_B_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)
theorem scover0_B_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S1024x1.size (by sl_kernel_rfl) y
def sout0_B_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem cover0_C_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x256.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1024x256.size (by sl_kernel_rfl) y
def out0_C_3 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x256 .bf16 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)
theorem cover0_C_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1024x1.size (by sl_kernel_rfl) y
def out0_C_4 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)
theorem scover0_C_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1024x1.size (by sl_kernel_rfl) y
def sout0_C_1 (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the buffers hold after each point -/

/-- After the body at position `n`: the tile block, the scale block, the quantized-rows scratch and the
    running-maximum scratch. The scratch buffers are carried: a later tile starts from what the point before left. -/
def outsAt0 (c : Dev nD) : (n : ℕ) → n < cfg0.N → Vec F S1024x256 .bf16 × Vec F S1024x1 .f32 × Vec F S1024x2048 .bf16 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 22 = 0 then
      if h1 : (n + 1) % 22 = 21 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 22 = 21 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, (outsAt0 c n (Nat.lt_of_succ_lt hn)).2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 22 = 0) (h1 : ¬t.val % 22 = 21) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 22 = 0) (h1 : ¬t.val % 22 = 21) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 22 = 0) (h1 : t.val % 22 = 21) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, (outsAt0 V c (t.val - 1) (Nat.lt_of_le_of_lt (Nat.sub_le _ _) t.isLt)).2.2.1, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers of the core that belong to the other kernel, each at some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther (F := F) c) ∗ (∃ r, prngReg c r)) := by
  unfold Pipeline.ΦA restOther; rw [scopedRest0_eq]; simp only [scM0_0, scM0_1, owns_whole]; try rfl

/-- The region invariant before position `n`: the class's before the first point; afterwards the two scratch
    buffers at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restOther (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther (F := F) c) ∗ (∃ r, prngReg c r)) := by
  cases n with
  | zero => exact absurd rfl hz
  | succ n => rfl

/-! ## The proof data -/

/-- The proof data of the first pipeline on core `c`: the arrays as the region finds them; after the body each input's
    buffer at its block, the outputs' as `outsAt0` says; the invariant `PhiS0`; nothing owed; the weight array's two windows
    at half its share each, the row array's window at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.Up.Body.lean ====
/-
  The body obligation of the first kernel region: at every grid point the body, handed the input blocks,
  the output buffers and the two scratch buffers as the proof data says, leaves them as the proof data says.
-/
import proofs.«162558_j39865886442066_2_alg».proof.Proof.Up.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 6400000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 176 := lt_of_lt_of_eq t.isLt (show cfg0.N = 176 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h0 : t.val % 22 = 0
  · by_cases h1 : t.val % 22 = 21
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold out0_A_3 sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        isplitl [HS1]; · iexact HS1
        iintro ⟨H0, H1, H2, ⟨%e3, H3⟩, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _)
        iexists _; iexact H4
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        isplitl [HS1]; · iexists _; iexact HS1
        iintro ⟨H0, H1, H2, ⟨%e3, H3⟩, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _)
        iexists _; iexact H4
  · have hz : t.val ≠ 0 := fun h => h0 (by rw [h])
    by_cases h1 : t.val % 22 = 21
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, ⟨%es1, HS1⟩⟩
      isplitl [HS0 HS1 HR Hg]
      · isplitl [HS0 HS1 HR]
        · isplitl [HS0]
          · iexact HS0
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_3 sout0_B_1; (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, HS0, ⟨%es1, HS1⟩⟩
      isplitl [HS0 HS1 HR Hg]
      · isplitl [HS0 HS1 HR]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      iexists _; iexact H4

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Up.Arrays.lean ====
/-
  The first kernel region reads the weight array through two windows. The four distinct buffers behind its
  five windows, each whole, are dealt to the windows with the weight array's share halved between the two;
  and the windows' arrays at the region's end are put back together, the two halves rejoined.
-/
import proofs.«162558_j39865886442066_2_alg».proof.Proof.Up.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first region's windows. -/
theorem arrRefs0 : Finset.univ.image (Pipeline.arrRef spec0) = ({main_v0, main_arg1, main_v1_0, main_v1_1} : Finset (Ref sig .tc)) := by decide

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_v1_0) ↦{fullShare} W main_v1_0) ∗ (((c : Thread nD τ).loc main_v1_1) ↦{fullShare} W main_v1_1)) := by
  unfold Pipeline.arrBufs
  rw [arrRefs0, bigSep_insert (by decide), bigSep_insert (by decide), bigSep_insert (by decide), bigSep_singleton]
  rfl

/-- One window's array, a whole buffer, as a plain points-to at the window's share. -/
theorem arr0_w (c : Dev nD) (G : (w : Fin cfg0.W) → Buf (Elt F) ((cfg0.win w).arr.view.loc (c : Thread nD τ))) (w : Fin cfg0.W) :
    ((cfg0.win w).arr.view.loc (c : Thread nD τ) ↦[(cfg0.win w).arr.view.set]{(dat0 V c).share w} G w : sProp 𝕄)
      = (((c : Thread nD τ).loc (Pipeline.arrRef spec0 w)) ↦{(dat0 V c).share w} G w) := by
  rw [(arr_whole0 w).set_eq_univ]

/-- The windows' arrays at contents `G`, one by one: the weight array twice, at the two halves of its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2)
          ∗ (((c : Thread nD τ).loc main_v1_0) ↦{fullShare} G 3) ∗ (((c : Thread nD τ).loc main_v1_1) ↦{fullShare} G 4)) := by
  unfold Dat.arrays
  rw [bigSep_congr (fun w _ => arr0_w V c G w), bigSep_W0]
  rfl

/-- ENTRY: the buffers whole at `V` are the windows' arrays at the proof data's entry contents. -/
theorem arrays0_of_arrBufs (c : Dev nD) :
    (Pipeline.arrBufs (Ix := Unit) (Name := ℕ) (U := UR sig nD τ) (Lvl := ℕ) spec0 c (V c) : sProp 𝕄) ⊢ (dat0 V c).arrays (dat0 V c).A := by
  rw [arrBufs0_eq, arrays0_eq]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

/-- EXIT: the windows' arrays at their final contents are the buffers whole at any contents `W` that agree with `V`
    on the two inputs and hold the two outputs' final arrays. -/
theorem arrBufs_of_arrays0 (c : Dev nD) (W : (b : Ref sig .tc) → Buf (Elt F) ((c : Thread nD τ).loc b))
    (h0 : W main_v0 = V c main_v0) (h1 : W main_arg1 = V c main_arg1)
    (h3 : W main_v1_0 = (dat0 V c).arrAt 3 cfg0.N) (h4 : W main_v1_1 = (dat0 V c).arrAt 4 cfg0.N) :
    ((dat0 V c).arrays ((dat0 V c).arrAt · cfg0.N) : sProp 𝕄) ⊢ Pipeline.arrBufs (Ix := Unit) (Name := ℕ) (U := UR sig nD τ) (Lvl := ℕ) spec0 c W := by
  rw [arrBufs0_eq, arrays0_eq, h0, h1, h3, h4, (dat0 V c).arrAt_in 0 rfl, (dat0 V c).arrAt_in 1 rfl, (dat0 V c).arrAt_in 2 rfl]
  iintro ⟨H0, H1l, H1r, H3, H4⟩
  isplitl [H0]; · iexact H0
  isplitl [H1l H1r]
  · iapply (pointsTo_share (PosShare.mem_left_op_right fullShare)).2
    isplitl [H1l]; · iexact H1l
    iexact H1r
  isplitl [H3]; · iexact H3
  iexact H4

/-- After any point but the first the invariant gives the class invariant back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 176 := N_0; omega)

end Cert.KernelIdeal.Hand

end
-- ==== Proof.Down.Base.lean ====
/-
  The second kernel region (the down projection accumulated over the inner tiles): what its runs share.
  The body resets its output block to zero at the first inner tile of each row block and adds one
  tile's product at every inner tile; which of the two a grid point does is decided by its position
  modulo the number of inner tiles.
-/
import proofs.«162558_j39865886442066_2_alg».proof.Proof.Gen.KernelIdeal.Launch
import proofs.«162558_j39865886442066_2_alg».proof.Proof.Gen.KernelIdeal.Skeleton
import proofs.«162558_j39865886442066_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition of the down kernel: the inner coordinate is zero. -/
abbrev cond1_0 (i : grid1.Coords) : Prop := (Scalar.cmpi .ne (Scalar.extui (Scalar.cmpi .eq (BitVec.ofNat 32 (i 1).val) 0#32)) 0#32) = 1#1
/-- It holds exactly at the points whose position is a multiple of the 11 inner tiles. -/
theorem hcond1_0 : ∀ t : Fin cfg1.N, cond1_0 (grid1.coords t) ↔ t.val % 11 = 0 :=
  (by decide +kernel : ∀ t : Fin grid1.N, cond1_0 (grid1.coords t) ↔ t.val % 11 = 0)

/-- One staging buffer of the output window, through which its contents are stated. -/
abbrev VO1_3 : View sig .tc .vmem S1024x2048 .f32 := (Memref.whole cc1_stg3_0 : Memref sig .tc .vmem S1024x2048 .f32).view
/-- Each window's current staging memref at a point, as the pipeline passes it, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

end Cert.KernelIdeal.Hand

end
-- ==== Proof.Down.RunA.lean ====
/-
  The down kernel's body run at a first inner tile (the output block is reset, then one tile's product added).
-/
import proofs.«162558_j39865886442066_2_alg».proof.Proof.Down.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output block when it resets it first, with the body's triple on whole
    staging memrefs: the inputs are handed back as found, the output with those pieces written. -/
noncomputable def kernelRun1_A (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__down_matmul_kernel i arg2 harg2 arg3 harg3 arg4 harg4 arg5 harg5) K } := by
  refine ⟨?_, fun E K => ?run⟩
  case run =>
    simp only [cc1__down_matmul_kernel_eq_skeleton]; unfold cc1__down_matmul_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.Down.RunB.lean ====
/-
  The down kernel's body run at a later inner tile (one tile's product added to what the point before left).
-/
import proofs.«162558_j39865886442066_2_alg».proof.Proof.Down.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body leaves in the output block over its running contents, with the body's triple on whole
    staging memrefs: the inputs are handed back as found, the output with those pieces written. -/
noncomputable def kernelRun1_B (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) :
    { L3 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__down_matmul_kernel i arg2 harg2 arg3 harg3 arg4 harg4 arg5 harg5) K } := by
  refine ⟨?_, fun E K => ?run⟩
  case run =>
    simp only [cc1__down_matmul_kernel_eq_skeleton]; unfold cc1__down_matmul_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.Down.Frame.lean ====
/-
  The second kernel region at any entry contents of the unscoped buffers: what its output block holds
  after each grid point (reset at a first inner tile, else the point before's contents plus one tile's
  product), the proof data naming it, and the body obligation at every point.
-/
import proofs.«162558_j39865886442066_2_alg».proof.Proof.Down.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The pieces of either case tile the output block, so they cover it. -/
theorem cover1_A_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) (y : S1024x2048.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1024x2048.size (by sl_kernel_rfl) y
/-- What a first inner tile leaves in the output block. -/
def out1_A_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) : Vec F S1024x2048 .f32 :=
  VO1_3.read (Elt F) (VO1_3.writes (Elt F) VO1_3.junk (kernelRun1_A c i arg2 harg2 arg3 harg3 arg4 harg4 arg5 harg5 hc0 x0 x1 x2).1)
theorem cover1_B_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) (y : S1024x2048.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1024x2048.size (by sl_kernel_rfl) y
/-- What a later inner tile leaves in the output block, over what the point before left. -/
def out1_B_3 (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) : Vec F S1024x2048 .f32 :=
  VO1_3.read (Elt F) (VO1_3.writes (Elt F) VO1_3.junk (kernelRun1_B c i arg2 harg2 arg3 harg3 arg4 harg4 arg5 harg5 hc0 x0 x1 x2 xo3).1)

/-- The accumulation: what the output block holds after the body at position `n`. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 11 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 11 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 11 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body each
    input's buffer at its block and the output's at the accumulation; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later inner tile the output's buffer holds what the body left at the point before: it was not written back between. -/
theorem before1_3_B (c : Dev nD) (t : Fin cfg1.N) (h0 : ¬t.val % 11 = 0) (d) :
    (dat1 V c).before 3 t d = outsAt1 V c (t.val - 1) (Nat.lt_of_le_of_lt (Nat.sub_le _ _) t.isLt) := by
  have hN : t.val < 88 := lt_of_lt_of_eq t.isLt (show cfg1.N = 88 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 88 := lt_of_lt_of_eq t.isLt (show cfg1.N = 88 from N_1)
  by_cases h0 : t.val % 11 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The library's body obligation for the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program as a run of its segments: the host stretches and the two kernel regions in order, the
  contents of every buffer that outlives a kernel named at each boundary. Every execution ends, nothing
  faults, and at the end each such buffer holds the last boundary's contents.
-/
import proofs.«162558_j39865886442066_2_alg».proof.Proof.Up.Body
import proofs.«162558_j39865886442066_2_alg».proof.Proof.Up.Arrays
import proofs.«162558_j39865886442066_2_alg».proof.Proof.Down.Frame
import proofs.«162558_j39865886442066_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the reshape of the input into rows. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first kernel: its two results at what its write-backs leave. -/
def W2 (c : Dev nD) : Valuation τ sig (Elt F) :=
  Function.update (Function.update (W1 m c) main_v1_0 ((dat0 (U1 m) c).arrAt 3 cfg0.N)) main_v1_1 ((dat0 (U1 m) c).arrAt 4 cfg0.N)
abbrev U2 : (c : Dev nD) → (b : Ref sig .tc) → Buf (Elt F) ((c : Thread nD τ).loc b) := fun c b => W2 m c b
/-- After the host's rounding of the second weight matrix, stretch by stretch. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev U7 : (c : Dev nD) → (b : Ref sig .tc) → Buf (Elt F) ((c : Thread nD τ).loc b) := fun c b => W7 m c b
/-- After the second kernel: its result at what its write-backs leave. -/
def W8 (c : Dev nD) : Valuation τ sig (Elt F) :=
  Function.update (W7 m c) main_v16 ((dat1 (U7 m) c).arrAt 3 cfg1.N)
abbrev U8 : (c : Dev nD) → (b : Ref sig .tc) → Buf (Elt F) ((c : Thread nD τ).loc b) := fun c b => W8 m c b
/-- After the final reshape. -/
abbrev W9 (c : Dev nD) : Valuation τ sig (Elt F) := StableHlo.after hostOps2 (W8 m c)

theorem W2_v1_0 (c : Dev nD) : W2 m c main_v1_0 = (dat0 (U1 m) c).arrAt 3 cfg0.N := by
  unfold W2
  rw [Function.update_of_ne (StableHlo.devRef_ne_of_ne (by decide : main_v1_0 ≠ main_v1_1) : (Proc.devRef .tc main_v1_0 : DevRef τ sig) ≠ Proc.devRef .tc main_v1_1), Function.update_self]
theorem W2_v1_1 (c : Dev nD) : W2 m c main_v1_1 = (dat0 (U1 m) c).arrAt 4 cfg0.N := by
  unfold W2; rw [Function.update_self]
theorem W2_of (c : Dev nD) (r : Ref sig .tc) (h : r ∉ ([main_v1_0, main_v1_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W8_v16 (c : Dev nD) : W8 m c main_v16 = (dat1 (U7 m) c).arrAt 3 cfg1.N := by
  unfold W8; rw [Function.update_self]
theorem W8_of (c : Dev nD) (r : Ref sig .tc) (h : r ∉ ([main_v16] : List (Ref sig .tc))) : W8 m c r = W7 m c r := by
  simp only [W8, Function.update_of_ne (StableHlo.devRef_ne_of_ne (List.ne_of_not_mem_cons h) : (Proc.devRef .tc r : DevRef τ sig) ≠ Proc.devRef .tc main_v16)]

/-- Off the first kernel's arrays nothing changes across it. -/
theorem hrest0 (c : Dev nD) : ∀ b, b ∉ Finset.univ.image (Pipeline.arrRef spec0) → U2 m c b = U1 m c b :=
  fun b hb => W2_of m c b (fun h => hb (by
    rw [arrRefs0]
    simp only [List.mem_cons, List.mem_nil_iff, or_false] at h
    rcases h with rfl | rfl <;> decide))
/-- At the second kernel's exit each of its arrays holds what the pipeline leaves, every other buffer what it held. -/
theorem hF1 (c : Dev nD) (w : Fin cfg1.W) : (dat1 (U7 m) c).arrAt w cfg1.N = U8 m c (Pipeline.arrRef spec1 w) := by
  match w with
  | ⟨0, _⟩ => exact ((dat1 (U7 m) c).arrAt_in 0 rfl _).trans ((A_eq1 (U7 m) c 0).trans (W8_of m c main_v1_0 (by decide)).symm)
  | ⟨1, _⟩ => exact ((dat1 (U7 m) c).arrAt_in 1 rfl _).trans ((A_eq1 (U7 m) c 1).trans (W8_of m c main_v1_1 (by decide)).symm)
  | ⟨2, _⟩ => exact ((dat1 (U7 m) c).arrAt_in 2 rfl _).trans ((A_eq1 (U7 m) c 2).trans (W8_of m c main_v15 (by decide)).symm)
  | ⟨3, _⟩ => exact (W8_v16 m c).symm
theorem hrest1 (c : Dev nD) : ∀ b, b ∉ Finset.univ.image (Pipeline.arrRef spec1) → U8 m c b = U7 m c b :=
  fun b hb => W8_of m c b (fun h => hb (by
    simp only [List.mem_cons, List.mem_nil_iff, or_false] at h
    subst h; exact Finset.mem_image.mpr ⟨3, Finset.mem_univ _, rfl⟩))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- The first kernel region: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit : (unscopedBufs (Ix := Unit) (Name := ℕ) (U := UR sig nD τ) (Lvl := ℕ) c (U1 m c) : sProp 𝕄)
        ⊢ iprop((dat0 (U1 m) c).arrays (dat0 (U1 m) c).A ∗ Pipeline.unscopedRest (Ix := Unit) (Name := ℕ) (U := UR sig nD τ) (Lvl := ℕ) spec0 c (U1 m c)) := by
      rw [Pipeline.unscopedBufs_split₀ cfgs 0 winFacts₀0.arr_unscoped c (U1 m c)]
      exact sep_mono (arrays0_of_arrBufs (U1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin : iprop((dat0 (U1 m) c).arrays ((dat0 (U1 m) c).arrAt · cfg0.N) ∗ Pipeline.unscopedRest (Ix := Unit) (Name := ℕ) (U := UR sig nD τ) (Lvl := ℕ) spec0 c (U1 m c))
        ⊢ (unscopedBufs (Ix := Unit) (Name := ℕ) (U := UR sig nD τ) (Lvl := ℕ) c (U2 m c) : sProp 𝕄) := by
      rw [Pipeline.unscopedBufs_split₀ cfgs 0 winFacts₀0.arr_unscoped c (U2 m c)]
      refine sep_mono (arrBufs_of_arrays0 (U1 m) c (U2 m c) (W2_of m c main_v0 (by decide)) (W2_of m c main_arg1 (by decide)) (W2_v1_0 m c) (W2_v1_1 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- The second kernel region: entered from every unscoped buffer at `W7`, left at `W8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN. From any memory with zero counters every weakly fair execution of the program terminates, nothing
    faulting, and every buffer that outlives a kernel ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.Frames.lean ====
/-
  The frame: every execution of the program ends, nothing faults, and the three argument arrays end as launched —
  no host operation writes an argument, and the kernels only read them.
-/
import proofs.«162558_j39865886442066_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer no segment writes holds its launch contents at the end. -/
theorem W9_kept (c : Dev nD) (r : Ref sig .tc) (h0 : r ∉ hostOps0_W) (hA : r ∉ ([main_v1_0, main_v1_1] : List (Ref sig .tc)))
    (h1 : r ∉ hostOps1_W) (h11 : r ∉ hostOps1_1_W) (h12 : r ∉ hostOps1_2_W) (h13 : r ∉ hostOps1_3_W) (h14 : r ∉ hostOps1_4_W)
    (hB : r ∉ ([main_v16] : List (Ref sig .tc))) (h2 : r ∉ hostOps2_W) :
    W9 m c r = m ((c : Thread nD τ).loc r) :=
  (StableHlo.after_of_writes_sub hostOps2 _ hostOps2_writes h2).trans <|
  (W8_of m c r hB).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of m c r hA).trans <|
  (StableHlo.after_of_writes_sub hostOps0 _ hostOps0_writes h0).trans rfl

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W9_kept m c main_arg0 (by decide) (by decide) (by decide) (by decide) (by decide) (by decide) (by decide) (by decide) (by decide)),
     (h c _ (mem_uc main_arg1 (by decide))).trans (W9_kept m c main_arg1 (by decide) (by decide) (by decide) (by decide) (by decide) (by decide) (by decide) (by decide) (by decide)),
     (h c _ (mem_uc main_arg2 (by decide))).trans (W9_kept m c main_arg2 (by decide) (by decide) (by decide) (by decide) (by decide) (by decide) (by decide) (by decide) (by decide))⟩)
    (run_all m ρ)

end Cert.KernelIdeal.Hand

end
-- ==== Proof.Up.Pieces.lean ====
/-
  What each case of the gate/up kernel leaves in its buffers, as values over the loaded blocks: the tile of
  hidden activations, the rounded row block kept in scratch, the running maximum, and at a last tile the scale.
-/
import proofs.«162558_j39865886442066_2_alg».proof.Proof.Up.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## A first inner tile -/
theorem sout0_A_0_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) :
    sout0_A_0 c i arg2 harg2 arg3 harg3 arg4 harg4 arg5 harg5 arg6 harg6 arg7 harg7 arg8 harg8 hc0 hc1 x0 x1 x2 = k0_pay5 x0 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S1024x2048) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

theorem out0_A_3_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) :
    out0_A_3 c i arg2 harg2 arg3 harg3 arg4 harg4 arg5 harg5 arg6 harg6 arg7 harg7 arg8 harg8 hc0 hc1 x0 x1 x2 = k0_pay3 (k0_pay5 x0) (k0_pay7 x1) (k0_pay8 x2) := by
  unfold out0_A_3
  rw [View.read_writes_eq_canon _ _ _ (cover0_A_3 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S1024x256) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

theorem sout0_A_1_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : cond0_0 i) (hc1 : ¬cond0_1 i)
    (x0 : Vec F S1024x2048 .f32) (x1 : Vec F S256x2048 .f32) (x2 : Vec F S256x2048 .f32) :
    sout0_A_1 c i arg2 harg2 arg3 harg3 arg4 harg4 arg5 harg5 arg6 harg6 arg7 harg7 arg8 harg8 hc0 hc1 x0 x1 x2 = k0_pay2 (k0_pay5 x0) (k0_pay7 x1) (k0_pay8 x2) (k0_pay6 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

/-! ## A tile that is neither first nor last -/
theorem out0_B_3_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) :
    out0_B_3 c i arg2 harg2 arg3 harg3 arg4 harg4 arg5 harg5 arg6 harg6 arg7 harg7 arg8 harg8 hc0 hc1 x0 x1 x2 xs0 xs1 = k0_pay3 xs0 (k0_pay7 x1) (k0_pay8 x2) := by
  unfold out0_B_3
  rw [View.read_writes_eq_canon _ _ _ (cover0_B_3 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1024x256) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

theorem sout0_B_1_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S256x2048 .f32) (x2 : Vec F S256x2048 .f32) (xs0 : Vec F S1024x2048 .bf16) (xs1 : Vec F S1024x1 .f32) :
    sout0_B_1 c i arg2 harg2 arg3 harg3 arg4 harg4 arg5 harg5 arg6 harg6 arg7 harg7 arg8 harg8 hc0 hc1 x0 x1 x2 xs0 xs1 = k0_pay2 xs0 (k0_pay7 x1) (k0_pay8 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1024x1) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

/-! ## A last inner tile -/
theorem out0_C_3_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) :
    out0_C_3 c i arg2 harg2 arg3 harg3 arg4 harg4 arg5 harg5 arg6 harg6 arg7 harg7 arg8 harg8 hc0 hc1 x0 x1 x2 xs0 xs1 = k0_pay3 xs0 (k0_pay7 x1) (k0_pay8 x2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1024x256) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

theorem sout0_C_1_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) :
    sout0_C_1 c i arg2 harg2 arg3 harg3 arg4 harg4 arg5 harg5 arg6 harg6 arg7 harg7 arg8 harg8 hc0 hc1 x0 x1 x2 xs0 xs1 = k0_pay2 xs0 (k0_pay7 x1) (k0_pay8 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1024x1) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

theorem out0_C_4_eq (c : Dev nD) (i : grid0.Coords) (arg2 : Memref sig .tc .vmem S1024x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1024x256 .bf16) (harg5 : arg5.IsWhole) (arg6 : Memref sig .tc .vmem S1024x1 .f32) (harg6 : arg6.IsWhole) (arg7 : Memref sig .tc .vmem S1024x2048 .bf16) (harg7 : arg7.IsWhole) (arg8 : Memref sig .tc .vmem S1024x1 .f32) (harg8 : arg8.IsWhole) (hc0 : ¬cond0_0 i) (hc1 : cond0_1 i)
    (x0 : Vec F S1024x2048 .f32) (x1 : Vec F S256x2048 .f32) (x2 : Vec F S256x2048 .f32) (xs0 : Vec F S1024x2048 .bf16) (xs1 : Vec F S1024x1 .f32) :
    out0_C_4 c i arg2 harg2 arg3 harg3 arg4 harg4 arg5 harg5 arg6 harg6 arg7 harg7 arg8 harg8 hc0 hc1 x0 x1 x2 xs0 xs1 = k0_pay4 (k0_pay2 xs0 (k0_pay7 x1) (k0_pay8 x2) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1024x1) hz2]
  simp only [View.readAt_eq_ld, harg2.read_unread, harg3.read_unread, harg4.read_unread, harg7.read_unread, harg8.read_unread,
    View.readCov_unit_zero (S := S1024x2048) _ hz2, View.readCov_unit_zero (S := S1024x1) _ hz2,
    View.ld_unit_zero (S := S1024x2048) hz2, View.ld_unit_zero (S := S256x2048) hz2, View.ld_unit_zero (S := S1024x1) hz2,
    View.ld_unit_zero (S := S1024x256) hz2]

end Cert.KernelIdeal.Hand

end
-- ==== Proof.Up.Chain.lean ====
/-
  The first kernel region point by point, as values: the rounded row block kept in scratch is the rounding of the
  point's own row block (a row block's points all read the same rows); the hidden tile is the payload of that and
  the point's two weight tiles; the running maximum is raised from zero at a first tile, from the point before's
  otherwise; the scale at a last tile is the payload of the running maximum.
-/
import proofs.«162558_j39865886442066_2_alg».proof.Proof.Up.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

/-- The printed index maps of the first region, decided over its grid: the row block is the point's quotient by the
    22 inner tiles, the tile its remainder; the second weight window reads 22 blocks further down. -/
theorem idx0 : ∀ t : Fin cfg0.N, win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = 22 + t.val % 22 ∧ win0_2.index t (1 : Fin 2) = 0
    ∧ win0_3.index t (0 : Fin 2) = t.val / 22 ∧ win0_3.index t (1 : Fin 2) = t.val % 22
    ∧ win0_4.index t (0 : Fin 2) = t.val / 22 ∧ win0_4.index t (1 : Fin 2) = 0 :=
  (by decide +kernel : ∀ t : Fin grid0.N, _)

/-- The array row behind row p of the point's row block; the weight rows behind row q of its two weight tiles. -/
def row0 (t : Fin cfg0.N) (p : Fin 1024) : Fin 8192 :=
  ⟨1024 * (t.val / 22) + p.val, by have := t.isLt; have h : cfg0.N = 176 := N_0; have := p.isLt; omega⟩
def wrowG (t : Fin cfg0.N) (q : Fin 256) : Fin 11264 := ⟨256 * (t.val % 22) + q.val, by have := q.isLt; omega⟩
def wrowU (t : Fin cfg0.N) (q : Fin 256) : Fin 11264 := ⟨5632 + (256 * (t.val % 22) + q.val), by have := q.isLt; omega⟩

theorem iblk0_0_apply (c : Dev nD) (t : Fin cfg0.N) (p : Fin 1024) (k : Fin 2048) :
    iblk0 V c 0 t (ix2 p k) = V c main_v0 (ix2 (row0 t p) k) := by
  unfold iblk0
  rw [View.read_apply]
  show V c main_v0 _ = V c main_v0 _
  congr 1
  funext a; apply Fin.ext
  match a with
  | ⟨0, _⟩ => show win0_0.index t 0 * 1024 + 1 * p.val = 1024 * (t.val / 22) + p.val; rw [(idx0 t).1]; omega
  | ⟨1, _⟩ => show win0_0.index t 1 * 2048 + 1 * k.val = k.val; rw [(idx0 t).2.1]; omega

theorem iblk0_1_apply (c : Dev nD) (t : Fin cfg0.N) (q : Fin 256) (k : Fin 2048) :
    iblk0 V c 1 t (ix2 q k) = V c main_arg1 (ix2 (wrowG t q) k) := by
  unfold iblk0
  rw [View.read_apply]
  show V c main_arg1 _ = V c main_arg1 _
  congr 1
  funext a; apply Fin.ext
  match a with
  | ⟨0, _⟩ => show win0_1.index t 0 * 256 + 1 * q.val = 256 * (t.val % 22) + q.val; rw [(idx0 t).2.2.1]; omega
  | ⟨1, _⟩ => show win0_1.index t 1 * 2048 + 1 * k.val = k.val; rw [(idx0 t).2.2.2.1]; omega

theorem iblk0_2_apply (c : Dev nD) (t : Fin cfg0.N) (q : Fin 256) (k : Fin 2048) :
    iblk0 V c 2 t (ix2 q k) = V c main_arg1 (ix2 (wrowU t q) k) := by
  unfold iblk0
  rw [View.read_apply]
  show V c main_arg1 _ = V c main_arg1 _
  congr 1
  funext a; apply Fin.ext
  match a with
  | ⟨0, _⟩ => show win0_2.index t 0 * 256 + 1 * q.val = 5632 + (256 * (t.val % 22) + q.val); rw [(idx0 t).2.2.2.2.1]; omega
  | ⟨1, _⟩ => show win0_2.index t 1 * 2048 + 1 * k.val = k.val; rw [(idx0 t).2.2.2.2.2.1]; omega

/-- Two points of one row block read the same rows. -/
theorem iblk0_0_congr (c : Dev nD) (t t' : Fin cfg0.N) (h : t.val / 22 = t'.val / 22) : iblk0 V c 0 t = iblk0 V c 0 t' := by
  funext j
  obtain ⟨p, k, rfl⟩ : ∃ (p : Fin 1024) (k : Fin 2048), j = ix2 p k := ⟨j 0, j 1, eq_ix2 j⟩
  rw [iblk0_0_apply, iblk0_0_apply]
  have e : row0 t p = row0 t' p := Fin.ext (by show 1024 * (t.val / 22) + p.val = 1024 * (t'.val / 22) + p.val; rw [h])
  rw [e]

/-- The scratch holds the rounding of the point's own row block. -/
theorem s0_eq (c : Dev nD) : ∀ (n : ℕ) (h : n < cfg0.N), (outsAt0 V c n h).2.2.1 = k0_pay5 (iblk0 V c 0 ⟨n, h⟩)
  | 0, h => by
    rw [outsAt0_A V c ⟨0, h⟩ rfl (fun h' => by have : (0 : ℕ) % 22 = 21 := h'; omega)]
    dsimp only
    rw [sout0_A_0_eq]
  | n + 1, h => by
    by_cases h0 : (n + 1) % 22 = 0
    · have h1 : ¬(n + 1) % 22 = 21 := by omega
      rw [outsAt0_A V c ⟨n + 1, h⟩ h0 h1]
      dsimp only
      rw [sout0_A_0_eq]
    · have hq : n / 22 = (n + 1) / 22 := by omega
      by_cases h1 : (n + 1) % 22 = 21
      · rw [outsAt0_C V c ⟨n + 1, h⟩ h0 h1]
        dsimp only
        show (outsAt0 V c n _).2.2.1 = _
        rw [s0_eq c n]
        exact congrArg k0_pay5 (iblk0_0_congr V c _ _ hq)
      · rw [outsAt0_B V c ⟨n + 1, h⟩ h0 h1]
        dsimp only
        show (outsAt0 V c n _).2.2.1 = _
        rw [s0_eq c n]
        exact congrArg k0_pay5 (iblk0_0_congr V c _ _ hq)

/-- What the scratch held when a later tile began: the same rounding. -/
theorem s0_prev (c : Dev nD) (t : Fin cfg0.N) (h0 : ¬t.val % 22 = 0) :
    (outsAt0 V c (t.val - 1) (Nat.lt_of_le_of_lt (Nat.sub_le _ _) t.isLt)).2.2.1 = k0_pay5 (iblk0 V c 0 t) := by
  rw [s0_eq]
  exact congrArg k0_pay5 (iblk0_0_congr V c _ _ (by dsimp only; omega))

/-- The hidden tile a point leaves. -/
theorem o3_eq (c : Dev nD) (t : Fin cfg0.N) :
    (outsAt0 V c t.val t.isLt).1 = k0_pay3 (k0_pay5 (iblk0 V c 0 t)) (k0_pay7 (iblk0 V c 1 t)) (k0_pay8 (iblk0 V c 2 t)) := by
  by_cases h0 : t.val % 22 = 0
  · have h1 : ¬t.val % 22 = 21 := by omega
    rw [outsAt0_A V c t h0 h1]
    dsimp only
    rw [out0_A_3_eq]
  · by_cases h1 : t.val % 22 = 21
    · rw [outsAt0_C V c t h0 h1]
      dsimp only
      rw [out0_C_3_eq, s0_prev V c t h0]
    · rw [outsAt0_B V c t h0 h1]
      dsimp only
      rw [out0_B_3_eq, s0_prev V c t h0]

/-- The running maximum a point leaves: raised from zero at a first tile, from the point before's otherwise. -/
theorem s1_first (c : Dev nD) (t : Fin cfg0.N) (h0 : t.val % 22 = 0) :
    (outsAt0 V c t.val t.isLt).2.2.2 = k0_pay2 (k0_pay5 (iblk0 V c 0 t)) (k0_pay7 (iblk0 V c 1 t)) (k0_pay8 (iblk0 V c 2 t)) (k0_pay6 (F := F)) := by
  have h1 : ¬t.val % 22 = 21 := by omega
  rw [outsAt0_A V c t h0 h1]
  dsimp only
  rw [sout0_A_1_eq]
theorem s1_next (c : Dev nD) (t : Fin cfg0.N) (h0 : ¬t.val % 22 = 0) :
    (outsAt0 V c t.val t.isLt).2.2.2 = k0_pay2 (k0_pay5 (iblk0 V c 0 t)) (k0_pay7 (iblk0 V c 1 t)) (k0_pay8 (iblk0 V c 2 t))
      ((outsAt0 V c (t.val - 1) (Nat.lt_of_le_of_lt (Nat.sub_le _ _) t.isLt)).2.2.2) := by
  by_cases h1 : t.val % 22 = 21
  · rw [outsAt0_C V c t h0 h1]
    dsimp only
    rw [sout0_C_1_eq, s0_prev V c t h0]
  · rw [outsAt0_B V c t h0 h1]
    dsimp only
    rw [sout0_B_1_eq, s0_prev V c t h0]

/-- The scale a last tile leaves: the payload of the running maximum it has just raised. -/
theorem o4_eq (c : Dev nD) (t : Fin cfg0.N) (h1 : t.val % 22 = 21) :
    (outsAt0 V c t.val t.isLt).2.1 = k0_pay4 ((outsAt0 V c t.val t.isLt).2.2.2) := by
  have h0 : ¬t.val % 22 = 0 := by omega
  rw [outsAt0_C V c t h0 h1]
  dsimp only
  rw [out0_C_4_eq, sout0_C_1_eq]

end Cert.KernelIdeal.Hand

end
-- ==== Proof.Spec.lean ====
/-
  The mathematics of the two programs, over the extended reals: a gated two-layer perceptron whose
  activations and weights are passed through a symmetric 8-bit rounding ("fake quantization").

  For a finite family `v` its scale is `max (max_k |v k| / 127) ε`, and an entry `y` of it is replaced by
  `clip (round (y / scale)) · scale`, the rounding to the nearest integer with ties to even and the clip to
  `[-127, 127]`. One row `xr` of the input is rounded this way, every row of the two weight matrices is,
  and the hidden row `silu(gate) · up` is, before each product. The result row is a function of the input
  row alone, which is what lets a computation tiled over rows, over hidden columns and over the inner axis
  of the second product be compared with the whole-array one.
-/
import Idealize.ShloMosaic.PureOps.Ideal
import Idealize.ShloMosaic.Lib.ValueIdx

noncomputable section

namespace QMlp

open Idealize.ShloMosaic

/-- The literals 127, -127 and 1e-8 as the programs write them (single-precision words, read exactly). -/
abbrev qhi : EReal := Ideal.ofBits .f32 0x42FE0000#32
abbrev qlo : EReal := Ideal.ofBits .f32 0xC2FE0000#32
abbrev qeps : EReal := Ideal.ofBits .f32 0x322BCC77#32

/-- The largest magnitude of a finite family: the fold of `max` from `-∞` over `|v k| = max (v k) (-(v k))`. -/
def amax {K : Type} [Fintype K] (v : K → EReal) : EReal := Finset.univ.fold max ⊥ (fun k => max (v k) (-(v k)))

/-- The rounding scale of a family. -/
def scaleOf {K : Type} [Fintype K] (v : K → EReal) : EReal := max (Ideal.div (amax v) qhi) qeps

/-- One entry rounded at scale `s`: divide, round half to even, clip, multiply back. -/
def quant (s y : EReal) : EReal := min qhi (max qlo (Ideal.liftRound Ideal.roundHalfEven (Ideal.div y s))) * s

/-- A family with every entry rounded at the family's own scale. -/
def fq {K : Type} [Fintype K] (v : K → EReal) (k : K) : EReal := quant (scaleOf v) (v k)

/-- The gated activation `g · σ(g)`. -/
def silu (g : EReal) : EReal := g * Ideal.logistic g

section Row

variable (xr : Fin 2048 → EReal) (w1 : Fin 11264 → Fin 2048 → EReal) (w2 : Fin 2048 → Fin 5632 → EReal)

/-- Row `o` of the first weight matrix against the input row, both rounded. -/
def proj (o : Fin 11264) : EReal := ∑ k : Fin 2048, fq xr k * fq (w1 o) k

/-- The hidden row: the first half of the projections gates the second half. -/
def hid (j : Fin 5632) : EReal := silu (proj xr w1 ⟨j.val, by omega⟩) * proj xr w1 ⟨5632 + j.val, by omega⟩

/-- The result row: the rounded hidden row against the rounded rows of the second weight matrix. -/
def outRow (o : Fin 2048) : EReal := ∑ j : Fin 5632, fq (hid xr w1) j * fq (w2 o) j

end Row

/-- The whole result, as a function of the three argument arrays, index by index. -/
def G (x0 : (⟨3, ![4, 2048, 2048]⟩ : Shape).Idx → EReal) (x1 : (⟨2, ![11264, 2048]⟩ : Shape).Idx → EReal)
    (x2 : (⟨2, ![2048, 5632]⟩ : Shape).Idx → EReal) : (⟨3, ![4, 2048, 2048]⟩ : Shape).Idx → EReal :=
  fun i => outRow (fun k => x0 (ValueIdx.ix3 (i 0) (i 1) k)) (fun o k => x1 (ValueIdx.ix2 o k)) (fun o j => x2 (ValueIdx.ix2 o j)) (i 2)

end QMlp

end
-- ==== Proof.LibMatmulNT.lean ====
/-
  A matrix product whose right operand is contracted on its LAST axis, read at an index: for the dimension
  numbers that contract the left operand's second axis with the right operand's second (rows × inner times
  columns × inner, no batch axis — the product of a matrix with the transpose of another, the transpose never
  formed), a product into the zero accumulator is, at `(i, j)`, the sum over the inner coordinate `k` of
  `lhs (i, k) · rhs (j, k)`.
-/
import Idealize.ShloMosaic.PureOps.Ideal.Laws
import Idealize.ShloMosaic.Lib.ValueIdx

noncomputable section

namespace Idealize.ShloMosaic.ValueIdx

/-- The product with a right operand contracted on its last axis, into the zero accumulator, at `(i, j)`, as a sum
    over the inner coordinate. -/
theorem matmul_transposedRhs_zero_apply (M K N : ℕ) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.PayUp.lean ====
/-
  The pure values the first program stores, read at an index: the row-wise 8-bit rounding of a block,
  the two products contracting the last axis of both operands, the gated activation, the running row
  maximum and the scale.
-/
import proofs.«162558_j39865886442066_2_alg».proof.Proof.Gen.KernelIdeal.Skeleton
import proofs.«162558_j39865886442066_2_alg».proof.Proof.Spec
import proofs.«162558_j39865886442066_2_alg».proof.Proof.LibMatmulNT
import proofs.«162558_j39865886442066_2_alg».proof.Proof.LibKeepdims

noncomputable section

namespace Cert.KernelIdeal.PayVal

open Cert.KernelIdeal Cert.KernelIdeal.Gen Idealize.ShloMosaic Idealize.ShloMosaic.ValueIdx

/-- The single-precision pattern of minus infinity denotes the least extended real. -/
theorem ofBits_neg_inf_f32 : Ideal.ofBits .f32 0xFF800000#32 = ⊥ := by
  simp [Ideal.ofBits, Ideal.ieee]

/-- The scale column of an `[R, C]` block: the largest magnitude of each row, taken along the second axis and
    kept as a column, divided by 127 and floored at the small constant, is at row `p` the scale of that row. -/
theorem scaleCol_apply {R C : ℕ} (x : FVec Ideal ⟨2, ![R, C]⟩ .f32)
    (hr : (⟨2, ![R, C]⟩ : Shape).Reduces [1] (⟨1, ![R]⟩ : Shape)) (hφ : FKind.Formats .f32)
    (hacc : (0xFF800000#32 : BitVec 32) = FKind.maximumf.neutral .f32 hφ)
    (hc : (⟨1, ![R]⟩ : Shape).ShapeCasts ⟨2, ![R, 1]⟩) (p : Fin R) :
    maximumf
        (divf (shapeCast ⟨2, ![R, 1]⟩ (multiReduction (F := Ideal) .maximumf [1] ⟨1, ![R]⟩ (absf x) 0xFF800000#32 hr hφ hacc) hc)
          (broadcast ⟨2, ![R, 1]⟩ (Scalar.ofBits (F := Ideal) .f32 0x42FE0000#32)))
        (broadcast ⟨2, ![R, 1]⟩ (Scalar.ofBits (F := Ideal) .f32 0x322BCC77#32)) (ix2 p (0 : Fin 1))
      = QMlp.scaleOf (fun k' : Fin C => x (ix2 p k')) := by
  rw [maximumf_apply, divf_apply, shapeCast_a_a1_apply, multiReduction_maximumf_rows_apply, ofBits_neg_inf_f32]
  rfl

/-- A block rounded at a scale column: divide by the column broadcast along the rows, round half to even, clip to
    [-127, 127], multiply back; at `(p, k)` this is the entry rounded at the scale of row `p`. -/
theorem quantBlock_apply {R C : ℕ} (x : FVec Ideal ⟨2, ![R, C]⟩ .f32) (s : FVec Ideal ⟨2, ![R, 1]⟩ .f32)
    (hb : (⟨2, ![R, 1]⟩ : Shape).Broadcasts ⟨2, ![R, C]⟩) (p : Fin R) (k : Fin C) :
    mulf (minimumf (broadcast ⟨2, ![R, C]⟩ (Scalar.ofBits (F := Ideal) .f32 0x42FE0000#32))
          (maximumf (broadcast ⟨2, ![R, C]⟩ (Scalar.ofBits (F := Ideal) .f32 0xC2FE0000#32))
            (roundeven (divf x (broadcastTo ⟨2, ![R, C]⟩ s hb)))))
        (broadcastTo ⟨2, ![R, C]⟩ s hb) (ix2 p k)
      = QMlp.quant (s (ix2 p (0 : Fin 1))) (x (ix2 p k)) := by
  show min (Ideal.ofBits .f32 0x42FE0000#32) (max (Ideal.ofBits .f32 0xC2FE0000#32)
      (Ideal.liftRound Ideal.roundHalfEven (Ideal.div (x (ix2 p k)) (broadcastTo ⟨2, ![R, C]⟩ s hb (ix2 p k)))))
      * broadcastTo ⟨2, ![R, C]⟩ s hb (ix2 p k) = _
  rw [broadcastTo_a1_ab_apply]
  rfl

/-- The first program's product of a row block with a tile whose rows are contracted, at an index. -/
theorem mm_up (l : FVec Ideal S1024x2048 .bf16) (r : FVec Ideal S256x2048 .bf16) (p : Fin 1024) (q : Fin 256) :
    matmul dot_S1024x2048_S256x2048_S1024x256_1_1_0_0_n_n none l r (constant (F := Ideal) S1024x256 .f32 0x00000000#32) (ix2 p q)
      = ∑ k : Fin 2048, l (ix2 p k) * r (ix2 q k) :=
  matmul_transposedRhs_zero_apply 1024 2048 256 none l r p q

/-- The input rows, each rounded at its own scale. -/
theorem pay5_apply (x : Vec Ideal S1024x2048 .f32) (p : Fin 1024) (k : Fin 2048) :
    k0_pay5 (F := Ideal) x (ix2 p k) = QMlp.fq (fun k' : Fin 2048 => x (ix2 p k')) k := by
  unfold k0_pay5
  simp only [shapeCast_self]
  refine (quantBlock_apply (R := 1024) (C := 2048) x _ _ p k).trans ?_
  exact congrArg (fun s => QMlp.quant s (x (ix2 p k))) (scaleCol_apply (R := 1024) (C := 2048) x _ _ _ _ p)

/-- The rows of the first weight tile, each rounded at its own scale. -/
theorem pay7_apply (w : Vec Ideal S256x2048 .f32) (q : Fin 256) (k : Fin 2048) :
    k0_pay7 (F := Ideal) w (ix2 q k) = QMlp.fq (fun k' : Fin 2048 => w (ix2 q k')) k := by
  unfold k0_pay7
  refine (quantBlock_apply (R := 256) (C := 2048) w _ _ q k).trans ?_
  exact congrArg (fun s => QMlp.quant s (w (ix2 q k))) (scaleCol_apply (R := 256) (C := 2048) w _ _ _ _ q)

/-- The rows of the second weight tile, each rounded at its own scale. -/
theorem pay8_apply (w : Vec Ideal S256x2048 .f32) (q : Fin 256) (k : Fin 2048) :
    k0_pay8 (F := Ideal) w (ix2 q k) = QMlp.fq (fun k' : Fin 2048 => w (ix2 q k')) k := by
  unfold k0_pay8
  refine (quantBlock_apply (R := 256) (C := 2048) w _ _ q k).trans ?_
  exact congrArg (fun s => QMlp.quant s (w (ix2 q k))) (scaleCol_apply (R := 256) (C := 2048) w _ _ _ _ q)

/-- The hidden tile: the gated activation of the first product times the second product. -/
theorem pay1_apply (v3 : Vec Ideal S1024x2048 .bf16) (v21 : FVec Ideal S256x2048 .bf16) (v38 : FVec Ideal S256x2048 .f32)
    (p : Fin 1024) (q : Fin 256) :
    k0_pay1 (F := Ideal) v3 v21 v38 (ix2 p q)
      = QMlp.silu (∑ k : Fin 2048, v3 (ix2 p k) * v21 (ix2 q k)) * ∑ k : Fin 2048, v3 (ix2 p k) * v38 (ix2 q k) := by
  unfold k0_pay1
  show matmul dot_S1024x2048_S256x2048_S1024x256_1_1_0_0_n_n none v3 v21 (constant (F := Ideal) S1024x256 .f32 0x00000000#32) (ix2 p q)
        * Ideal.logistic (matmul dot_S1024x2048_S256x2048_S1024x256_1_1_0_0_n_n none v3 v21 (constant (F := Ideal) S1024x256 .f32 0x00000000#32) (ix2 p q))
        * matmul dot_S1024x2048_S256x2048_S1024x256_1_1_0_0_n_n none v3 (truncf .bf16 v38 bitsLt_bf16_f32) (constant (F := Ideal) S1024x256 .f32 0x00000000#32) (ix2 p q) = _
  rw [mm_up v3 v21 p q, mm_up v3 (truncf .bf16 v38 bitsLt_bf16_f32) p q]
  rfl

/-- The running maximum of a row: the old one against the largest magnitude of the row of the hidden tile. -/
theorem pay2_apply (v3 : Vec Ideal S1024x2048 .bf16) (v21 : FVec Ideal S256x2048 .bf16) (v38 : FVec Ideal S256x2048 .f32)
    (v45 : Vec Ideal S1024x1 .f32) (p : Fin 1024) :
    k0_pay2 (F := Ideal) v3 v21 v38 v45 (ix2 p (0 : Fin 1))
      = max (v45 (ix2 p (0 : Fin 1))) (QMlp.amax (fun q : Fin 256 => k0_pay1 (F := Ideal) v3 v21 v38 (ix2 p q))) := by
  unfold k0_pay2
  simp only [shapeCast_self]
  rw [maximumf_apply, shapeCast_a_a1_apply]
  refine congrArg (max (v45 (ix2 p (0 : Fin 1)))) ?_
  refine (multiReduction_maximumf_rows_apply (a := 1024) (b := 256) (absf (k0_pay1 (F := Ideal) v3 v21 v38)) _ _ _ _ p).trans ?_
  rw [ofBits_neg_inf_f32]
  rfl

/-- The stored hidden tile is the hidden tile: a change of format is the identity on the extended reals. -/
theorem pay3_eq (v3 : Vec Ideal S1024x2048 .bf16) (v21 : FVec Ideal S256x2048 .bf16) (v38 : FVec Ideal S256x2048 .f32) :
    k0_pay3 (F := Ideal) v3 v21 v38 = k0_pay1 (F := Ideal) v3 v21 v38 := by
  unfold k0_pay3
  rfl

/-- The scale of a row from its running maximum. -/
theorem pay4_apply (v58 : Vec Ideal S1024x1 .f32) (p : Fin 1024) :
    k0_pay4 (F := Ideal) v58 (ix2 p (0 : Fin 1)) = max (Ideal.div (v58 (ix2 p (0 : Fin 1))) QMlp.qhi) QMlp.qeps := by
  unfold k0_pay4
  rfl

/-- The running maximum starts at zero. -/
theorem pay6_apply (p : Fin 1024) : k0_pay6 (F := Ideal) (ix2 p (0 : Fin 1)) = 0 := by
  unfold k0_pay6
  simp only [shapeCast_self]
  show Ideal.ofBits .f32 0x00000000#32 = 0
  exact Ideal.ofBits_zero_f32

end Cert.KernelIdeal.PayVal

end
-- ==== Proof.LibRunMax.lean ====
/-
  Running maxima in a linear order.

  A value accumulated as `acc := max acc (f i)` for i = 0, 1, …, n-1 is written `runMax f a n`; the same
  accumulation carried out in `k` consecutive blocks of `b` terms each is `blockMax g b a k`.  Neither is
  ever compared term by term with another way of taking the same maximum: each is characterised by its
  upper bounds — `runMax f a n ≤ z` exactly when `a ≤ z` and every one of the `n` terms is `≤ z` — and two
  elements of a partial order with the same upper bounds are equal.  Nothing here needs the terms to be
  finite, so the lemmas apply to extended reals with either infinity among the terms.
-/
import Mathlib.Order.Lattice
import Mathlib.Order.Basic
import Mathlib.Data.Finset.Fold
import Mathlib.Data.Fintype.Basic
import Mathlib.Data.Fin.Basic

namespace RunMax

variable {α : Type*} [LinearOrder α]

/-- `a` joined with the first `n` terms of `f`, one at a time from the left. -/
def runMax (f : ℕ → α) (a : α) : ℕ → α
  | 0 => a
  | n + 1 => max (runMax f a n) (f n)

@[simp] theorem runMax_zero (f : ℕ → α) (a : α) : runMax f a 0 = a := rfl

theorem runMax_succ (f : ℕ → α) (a : α) (n : ℕ) : runMax f a (n + 1) = max (runMax f a n) (f n) := rfl

/-- The upper bounds of a running maximum are the common upper bounds of its start and its terms. -/
theorem runMax_le_iff (f : ℕ → α) (a : α) (n : ℕ) (z : α) :
    runMax f a n ≤ z ↔ a ≤ z ∧ ∀ i < n, f i ≤ z := by
  induction n with
  | zero => exact ⟨fun h => ⟨h, fun i hi => absurd hi (Nat.not_lt_zero i)⟩, fun h => h.1⟩
  | succ n ih =>
    rw [runMax_succ, max_le_iff, ih]
    constructor
    · rintro ⟨⟨ha, hf⟩, hn⟩
      refine ⟨ha, fun i hi => ?_⟩
      rcases Nat.lt_succ_iff_lt_or_eq.mp hi with h | rfl
      · exact hf i h
      · exact hn
    · rintro ⟨ha, hf⟩
      exact ⟨⟨ha, fun i hi => hf i (Nat.lt_succ_of_lt hi)⟩, hf n (Nat.lt_succ_self n)⟩

/-- A running maximum depends on its first `n` terms only. -/
theorem runMax_congr {f f' : ℕ → α} {a : α} {n : ℕ} (h : ∀ i < n, f i = f' i) : runMax f a n = runMax f' a n := by
  induction n with
  | zero => rfl
  | succ n ih =>
    rw [runMax_succ, runMax_succ, ih (fun i hi => h i (Nat.lt_succ_of_lt hi)), h n (Nat.lt_succ_self n)]

/-- Continuing a running maximum past its first `lo` terms by `n` more is the running maximum of `lo + n` terms. -/
theorem runMax_add (f : ℕ → α) (a : α) (lo n : ℕ) :
    runMax (fun i => f (lo + i)) (runMax f a lo) n = runMax f a (lo + n) := by
  induction n with
  | zero => rfl
  | succ n ih => rw [runMax_succ, ih]; rfl

/-- `k` consecutive blocks of `b` terms of `g`, each block a running maximum started from the block before. -/
def blockMax (g : ℕ → α) (b : ℕ) (a : α) : ℕ → α
  | 0 => a
  | k + 1 => runMax (fun i => g (b * k + i)) (blockMax g b a k) b

@[simp] theorem blockMax_zero (g : ℕ → α) (b : ℕ) (a : α) : blockMax g b a 0 = a := rfl

theorem blockMax_succ (g : ℕ → α) (b : ℕ) (a : α) (k : ℕ) :
    blockMax g b a (k + 1) = runMax (fun i => g (b * k + i)) (blockMax g b a k) b := rfl

/-- The upper bounds of a maximum taken block by block are those of its start and of all `b * k` terms. -/
theorem blockMax_le_iff (g : ℕ → α) (b : ℕ) (a : α) (k : ℕ) (z : α) :
    blockMax g b a k ≤ z ↔ a ≤ z ∧ ∀ n < b * k, g n ≤ z := by
  induction k with
  | zero =>
    exact ⟨fun h => ⟨h, fun n hn => absurd hn (by rw [Nat.mul_zero]; exact Nat.not_lt_zero n)⟩, fun h => h.1⟩
  | succ k ih =>
    rw [blockMax_succ, runMax_le_iff, ih, Nat.mul_succ]
    constructor
    · rintro ⟨⟨ha, hlo⟩, hhi⟩
      refine ⟨ha, fun n hn => ?_⟩
      by_cases h : n < b * k
      · exact hlo n h
      · have e : n = b * k + (n - b * k) := by omega
        rw [e]; exact hhi _ (by omega)
    · rintro ⟨ha, h⟩
      exact ⟨⟨ha, fun n hn => h n (by omega)⟩, fun i hi => h _ (by omega)⟩

/-- A fold of `max` over all of `Fin N` has the upper bounds of its start and of every term. -/
theorem fold_univ_le_iff {N : ℕ} (e : α) (h : Fin N → α) (z : α) :
    (Finset.univ : Finset (Fin N)).fold max e h ≤ z ↔ e ≤ z ∧ ∀ n : Fin N, h n ≤ z := by
  rw [Finset.fold_max_le]
  exact ⟨fun ⟨a, b⟩ => ⟨a, fun n => b n (Finset.mem_univ n)⟩, fun ⟨a, b⟩ => ⟨a, fun n _ => b n⟩⟩

/-- A maximum taken block by block over `b * k = N` terms, the terms those of `h : Fin N → α` in order,
    is the fold of `max` over `Fin N` from the same start. -/
theorem blockMax_eq_fold {N : ℕ} (g : ℕ → α) (b k : ℕ) (hN : b * k = N) (e : α) (h : Fin N → α)
    (hg : ∀ n : Fin N, g n.val = h n) :
    blockMax g b e k = (Finset.univ : Finset (Fin N)).fold max e h := by
  refine eq_of_forall_ge_iff fun z => ?_
  rw [blockMax_le_iff, fold_univ_le_iff, hN]
  exact ⟨fun ⟨a, c⟩ => ⟨a, fun n => hg n ▸ c n.val n.isLt⟩, fun ⟨a, c⟩ => ⟨a, fun n hn => hg ⟨n, hn⟩ ▸ c ⟨n, hn⟩⟩⟩

end RunMax
-- ==== Proof.LibTileAmax.lean ====
/-
  The largest magnitude of a family taken tile by tile.

  A family of N = b·k extended reals is cut into k consecutive tiles of b entries. A running value starts at 0 and is
  raised, tile after tile, to the maximum of itself and the tile's largest magnitude (the fold of `max` from `-∞`
  over `|x| = max x (-x)`). After the last tile it is the largest magnitude of the whole family: both sides have
  the same upper bounds — a bound of all the magnitudes is nonnegative because a magnitude is, so the start 0 adds
  nothing — and two elements of a linear order with the same upper bounds are equal. Nothing here needs an entry
  to be finite.
-/
import Mathlib.Order.Lattice
import Mathlib.Data.Finset.Fold
import Mathlib.Data.Fintype.Basic
import Mathlib.Data.EReal.Operations
import proofs.«162558_j39865886442066_2_alg».proof.Proof.LibRunMax

noncomputable section

namespace TileAmax

/-- The largest magnitude of a finite family of extended reals: the fold of `max` from `-∞`. -/
def amax {K : Type} [Fintype K] (v : K → EReal) : EReal := Finset.univ.fold max ⊥ (fun k => max (v k) (-(v k)))

theorem amax_le_iff {K : Type} [Fintype K] (v : K → EReal) (z : EReal) : amax v ≤ z ↔ ∀ k, max (v k) (-(v k)) ≤ z := by
  unfold amax
  rw [Finset.fold_max_le]
  exact ⟨fun h k => h.2 k (Finset.mem_univ k), fun h => ⟨bot_le, fun k _ => h k⟩⟩

/-- A magnitude is nonnegative. -/
theorem zero_le_abs (a : EReal) : 0 ≤ max a (-a) := by
  rcases le_total 0 a with h | h
  · exact le_max_of_le_left h
  · exact le_max_of_le_right (by have := EReal.neg_le_neg_iff.mpr h; simpa using this)

/-- The running maximum over k tiles of b entries, started at 0, is the largest magnitude of all b·k = N entries. -/
theorem runMax_tiles {N : ℕ} (b k : ℕ) (hN : b * k = N) (hpos : 0 < N) (v : Fin N → EReal) (g : ℕ → EReal)
    (hg : ∀ J : Fin N, g J.val = v J) :
    RunMax.runMax (fun i => amax (fun q : Fin b => g (b * i + q.val))) 0 k = amax v := by
  refine eq_of_forall_ge_iff fun z => ?_
  rw [RunMax.runMax_le_iff, amax_le_iff]
  constructor
  · rintro ⟨-, h⟩ J
    have hb : 0 < b := Nat.pos_of_ne_zero (by rintro rfl; omega)
    have hJ : J.val / b < k := by
      have h1 : J.val < b * k := lt_of_lt_of_eq J.isLt hN.symm
      exact Nat.div_lt_of_lt_mul h1
    have := (amax_le_iff _ z).mp (h (J.val / b) hJ) ⟨J.val % b, Nat.mod_lt _ hb⟩
    rwa [show b * (J.val / b) + J.val % b = J.val from Nat.div_add_mod _ _, hg] at this
  · intro h
    refine ⟨(zero_le_abs (v ⟨0, hpos⟩)).trans (h ⟨0, hpos⟩), fun i hi => (amax_le_iff _ z).mpr fun q => ?_⟩
    have hlt : b * i + q.val < N := by
      have := q.isLt
      calc b * i + q.val < b * i + b := by omega
        _ = b * (i + 1) := by ring
        _ ≤ b * k := Nat.mul_le_mul_left b hi
        _ = N := hN
    have := h ⟨b * i + q.val, hlt⟩
    rwa [← hg ⟨b * i + q.val, hlt⟩] at this

end TileAmax

end
-- ==== Proof.Up.Value.lean ====
/-
  The value of the first kernel region over the extended reals. A point's hidden tile is the gated activation of the
  rounded input rows against the rounded weight rows of its two tiles; the running maximum after tile i is the largest
  magnitude of the first i+1 hidden tiles, raised from zero; so the two result arrays end holding the hidden rows and,
  per row, the rounding scale of the whole hidden row. Maxima are compared through their upper bounds; nothing here
  needs an entry to be finite.
-/
import proofs.«162558_j39865886442066_2_alg».proof.Proof.Up.Chain
import proofs.«162558_j39865886442066_2_alg».proof.Proof.PayUp
import proofs.«162558_j39865886442066_2_alg».proof.Proof.LibTileAmax
import proofs.«162558_j39865886442066_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.KernelIdeal.PayVal

variable (V : (c : Dev nD) → (b : Ref sig .tc) → Buf (Elt Ideal) ((c : Thread nD τ).loc b))

/-- Row r of the input rows, and the rows of the first weight matrix, as the region finds them. -/
abbrev xrow (c : Dev nD) (r : Fin 8192) : Fin 2048 → EReal := fun k => V c main_v0 (ix2 r k)
abbrev w1rows (c : Dev nD) : Fin 11264 → Fin 2048 → EReal := fun o k => V c main_arg1 (ix2 o k)
/-- The hidden column behind column q of the point's tile. -/
def col0 (t : Fin cfg0.N) (q : Fin 256) : Fin 5632 := ⟨256 * (t.val % 22) + q.val, by have := q.isLt; omega⟩

/-- A point's hidden tile at (p, q): the hidden row of input row `row0 t p` at column `col0 t q`. -/
theorem tile_apply (c : Dev nD) (t : Fin cfg0.N) (p : Fin 1024) (q : Fin 256) :
    k0_pay1 (F := Ideal) (k0_pay5 (iblk0 V c 0 t)) (k0_pay7 (iblk0 V c 1 t)) (k0_pay8 (iblk0 V c 2 t)) (ix2 p q)
      = QMlp.hid (xrow V c (row0 t p)) (w1rows V c) (col0 t q) := by
  rw [pay1_apply]
  simp only [pay5_apply, pay7_apply, pay8_apply, iblk0_0_apply, iblk0_1_apply, iblk0_2_apply]
  rfl

/-- The hidden row numbered by naturals (zero past its end). -/
def hidN (c : Dev nD) (r : Fin 8192) (J : ℕ) : EReal := if h : J < 5632 then QMlp.hid (xrow V c r) (w1rows V c) ⟨J, h⟩ else 0

theorem hid_eq_hidN (c : Dev nD) (r : Fin 8192) (J : Fin 5632) (n : ℕ) (hJ : J.val = n) :
    QMlp.hid (xrow V c r) (w1rows V c) J = hidN V c r n := by
  subst hJ; unfold hidN; rw [dif_pos J.isLt]

/-- The running maximum after position n, at row p: the first n % 22 + 1 tiles' largest magnitudes joined, from zero. -/
theorem s1_apply (c : Dev nD) : ∀ (n : ℕ) (h : n < cfg0.N) (p : Fin 1024),
    (outsAt0 V c n h).2.2.2 (ix2 p (0 : Fin 1))
      = RunMax.runMax (fun i => TileAmax.amax (fun q : Fin 256 => hidN V c (row0 ⟨n, h⟩ p) (256 * i + q.val))) 0 (n % 22 + 1)
  | 0, h, p => by
    rw [s1_first V c ⟨0, h⟩ rfl, pay2_apply, pay6_apply]
    simp only [tile_apply]
    show max 0 (TileAmax.amax _) = RunMax.runMax _ 0 1
    rw [RunMax.runMax_succ, RunMax.runMax_zero]
    exact congrArg (max 0) (congrArg TileAmax.amax (funext fun q => hid_eq_hidN V c _ _ _ rfl))
  | n + 1, h, p => by
    by_cases h0 : (n + 1) % 22 = 0
    · rw [s1_first V c ⟨n + 1, h⟩ h0, pay2_apply, pay6_apply]
      simp only [tile_apply]
      rw [h0]
      show max 0 (TileAmax.amax _) = RunMax.runMax _ 0 1
      rw [RunMax.runMax_succ, RunMax.runMax_zero]
      exact congrArg (max 0) (congrArg TileAmax.amax (funext fun q => hid_eq_hidN V c _ _ _ (by
        show 256 * ((n + 1) % 22) + q.val = 256 * 0 + q.val; rw [h0])))
    · rw [s1_next V c ⟨n + 1, h⟩ h0, pay2_apply]
      simp only [tile_apply]
      show max ((outsAt0 V c n _).2.2.2 (ix2 p (0 : Fin 1))) (TileAmax.amax _) = _
      rw [s1_apply c n _ p]
      have e1 : (n + 1) % 22 = n % 22 + 1 := by omega
      have e2 : row0 ⟨n, Nat.lt_of_succ_lt h⟩ p = row0 ⟨n + 1, h⟩ p := by
        unfold row0; apply Fin.ext; show 1024 * (n / 22) + p.val = 1024 * ((n + 1) / 22) + p.val; omega
      rw [e1, RunMax.runMax_succ (n := n % 22 + 1), e2]
      exact congrArg (max _) (congrArg TileAmax.amax (funext fun q => hid_eq_hidN V c _ _ _ (by
        show 256 * ((n + 1) % 22) + q.val = 256 * (n % 22 + 1) + q.val; rw [e1])))

/-- After a last tile the running maximum is the largest magnitude of the whole hidden row. -/
theorem s1_last (c : Dev nD) (t : Fin cfg0.N) (h1 : t.val % 22 = 21) (p : Fin 1024) :
    (outsAt0 V c t.val t.isLt).2.2.2 (ix2 p (0 : Fin 1)) = QMlp.amax (QMlp.hid (xrow V c (row0 t p)) (w1rows V c)) := by
  rw [s1_apply, h1]
  exact TileAmax.runMax_tiles 256 22 rfl (by decide) (QMlp.hid (xrow V c (row0 t p)) (w1rows V c)) (hidN V c (row0 t p))
    (fun J => (hid_eq_hidN V c _ J _ rfl).symm)

/-! ## The two result arrays -/

/-- The hidden activations, row by row. -/
def H0 (c : Dev nD) : S8192x5632.Idx → EReal := fun i => QMlp.hid (xrow V c (i 0)) (w1rows V c) (i 1)
/-- The rounding scale of each hidden row. -/
def S0 (c : Dev nD) : S8192x1.Idx → EReal := fun i => QMlp.scaleOf (QMlp.hid (xrow V c (i 0)) (w1rows V c))

theorem mem_blk0_3 (t : Fin cfg0.N) (i : S8192x5632.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v1_0).slice (win0_3.rect t)).set ↔ _
  rw [View.set_slice_whole, Rect.mem_set_unit]
  exact Iff.rfl
theorem mem_blk0_4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v1_1).slice (win0_4.rect t)).set ↔ _
  rw [View.set_slice_whole, Rect.mem_set_unit]
  exact Iff.rfl

/-- Every point writes back its tile of the hidden activations. -/
theorem flushed0_3_eq (c : Dev nD) (t : Fin cfg0.N) (hf : (cfg0.win 3).flush t = true) :
    (dat0 V c).flushed 3 t = ((cfg0.win 3).blk t).view.read (Elt Ideal) (H0 V c) := by
  show (cfg0.win 3).cut (grid0.coords t) ((dat0 V c).after 3 t) = _
  rw [after0_3]
  funext j
  obtain ⟨p, q, rfl⟩ : ∃ (p : Fin 1024) (q : Fin 256), j = ix2 p q := ⟨j 0, j 1, eq_ix2 j⟩
  show (outsAt0 V c t.val t.isLt).1 (ix2 p q) = H0 V c (((cfg0.win 3).blk t).view.emb (ix2 p q))
  have e : ((cfg0.win 3).blk t).view.emb (ix2 p q) = ix2 (row0 t p) (col0 t q) := by
    funext a; apply Fin.ext
    match a with
    | ⟨0, _⟩ => show win0_3.index t 0 * 1024 + 1 * p.val = 1024 * (t.val / 22) + p.val; rw [(idx0 t).2.2.2.2.2.2.1]; omega
    | ⟨1, _⟩ => show win0_3.index t 1 * 256 + 1 * q.val = 256 * (t.val % 22) + q.val; rw [(idx0 t).2.2.2.2.2.2.2.1]; omega
  rw [o3_eq, pay3_eq, tile_apply, e]
  rfl

/-- A last tile writes back its rows' scales. -/
theorem flushed0_4_eq (c : Dev nD) (t : Fin cfg0.N) (hf : (cfg0.win 4).flush t = true) :
    (dat0 V c).flushed 4 t = ((cfg0.win 4).blk t).view.read (Elt Ideal) (S0 V c) := by
  have h1 : t.val % 22 = 21 := (flush0_4 t).mp hf
  show (cfg0.win 4).cut (grid0.coords t) ((dat0 V c).after 4 t) = _
  rw [after0_4]
  funext j
  obtain ⟨p, z, rfl⟩ : ∃ (p : Fin 1024) (z : Fin 1), j = ix2 p z := ⟨j 0, j 1, eq_ix2 j⟩
  obtain rfl : z = 0 := Subsingleton.elim _ _
  show (outsAt0 V c t.val t.isLt).2.1 (ix2 p (0 : Fin 1)) = S0 V c (((cfg0.win 4).blk t).view.emb (ix2 p (0 : Fin 1)))
  have e : ((cfg0.win 4).blk t).view.emb (ix2 p (0 : Fin 1)) = ix2 (row0 t p) (0 : Fin 1) := by
    funext a; apply Fin.ext
    match a with
    | ⟨0, _⟩ => show win0_4.index t 0 * 1024 + 1 * p.val = 1024 * (t.val / 22) + p.val; rw [(idx0 t).2.2.2.2.2.2.2.2.1]; omega
    | ⟨1, _⟩ => show win0_4.index t 1 * 1 + 1 * 0 = 0; rw [(idx0 t).2.2.2.2.2.2.2.2.2]
  rw [o4_eq V c t h1, pay4_apply, s1_last V c t h1 p, e]
  rfl

theorem cover0_3 (c : Dev nD) (i : S8192x5632.Idx) :
    ∃ t : Fin cfg0.N, (cfg0.win 3).flush t = true ∧ i ∈ ((cfg0.win 3).blk t).view.set := by
  have hi0 : (i 0).val < 8192 := (i 0).isLt
  have hi1 : (i 1).val < 5632 := (i 1).isLt
  have hN : cfg0.N = 176 := N_0
  let t : Fin cfg0.N := ⟨22 * ((i 0).val / 1024) + (i 1).val / 256, by omega⟩
  have ht : t.val = 22 * ((i 0).val / 1024) + (i 1).val / 256 := rfl
  refine ⟨t, flush0_3 t, ?_⟩
  rw [mem_blk0_3]
  intro a
  match a with
  | ⟨0, _⟩ => show win0_3.index t 0 * 1024 ≤ (i 0).val ∧ (i 0).val < win0_3.index t 0 * 1024 + 1024
              rw [(idx0 t).2.2.2.2.2.2.1]; omega
  | ⟨1, _⟩ => show win0_3.index t 1 * 256 ≤ (i 1).val ∧ (i 1).val < win0_3.index t 1 * 256 + 256
              rw [(idx0 t).2.2.2.2.2.2.2.1]; omega

theorem cover0_4 (c : Dev nD) (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 176 := N_0
  let t : Fin cfg0.N := ⟨22 * ((i 0).val / 1024) + 21, by omega⟩
  have ht : t.val = 22 * ((i 0).val / 1024) + 21 := rfl
  refine ⟨t, (flush0_4 t).mpr (by omega), ?_⟩
  rw [mem_blk0_4]
  intro a
  match a with
  | ⟨0, _⟩ => show win0_4.index t 0 * 1024 ≤ (i 0).val ∧ (i 0).val < win0_4.index t 0 * 1024 + 1024
              rw [(idx0 t).2.2.2.2.2.2.2.2.1]; omega
  | ⟨1, _⟩ => show win0_4.index t 1 * 1 ≤ (i 1).val ∧ (i 1).val < win0_4.index t 1 * 1 + 1
              rw [(idx0 t).2.2.2.2.2.2.2.2.2]; omega

/-- So the first region's two result arrays end at the hidden rows and their scales. -/
theorem final0_3 (c : Dev nD) : (dat0 V c).arrAt 3 cfg0.N = H0 V c :=
  (dat0 V c).arrAt_eq_of_cover 3 (H0 V c) (flushed0_3_eq V c) (cover0_3 c)
theorem final0_4 (c : Dev nD) : (dat0 V c).arrAt 4 cfg0.N = S0 V c :=
  (dat0 V c).arrAt_eq_of_cover 4 (S0 V c) (flushed0_4_eq V c) (cover0_4 c)

end Cert.KernelIdeal.Hand

end
-- ==== Proof.Down.Pieces.lean ====
/-
  What each case of the down kernel leaves in its output block, as a value: at a first inner tile the
  accumulation step applied to the zero block, at a later one applied to the running contents.
-/
import proofs.«162558_j39865886442066_2_alg».proof.Proof.Down.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A later inner tile: one covering store of the step's payload over the loaded blocks and the running contents. -/
theorem out1_B_3_eq (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : ¬cond1_0 i)
    (x0 : Vec F S1024x512 .bf16) (x1 : Vec F S1024x1 .f32) (x2 : Vec F S2048x512 .bf16) (xo3 : Vec F S1024x2048 .f32) :
    out1_B_3 c i arg2 harg2 arg3 harg3 arg4 harg4 arg5 harg5 hc0 x0 x1 x2 xo3 = k1_pay2 x0 x1 x2 xo3 := by
  unfold out1_B_3
  rw [View.read_writes_eq_canon _ _ _ (cover1_B_3 c i arg2 harg2 arg3 harg3 arg4 harg4 arg5 harg5 hc0 x0 x1 x2 xo3)]
  unfold kernelRun1_B
  dsimp only
  rw [View.canon_unit_zero hz2]
  simp only [View.readAt_eq_ld, harg2.read_unread, harg3.read_unread, harg4.read_unread, harg5.read_unread,
    View.ld_unit_zero (S := S1024x512) hz2, View.ld_unit_zero (S := S1024x1) hz2, View.ld_unit_zero (S := S2048x512) hz2,
    View.ld_unit_zero (S := S1024x2048) hz2]

/-- A first inner tile: the zero block is stored, read back, and the step applied to it. -/
theorem out1_A_3_eq (c : Dev nD) (i : grid1.Coords) (arg2 : Memref sig .tc .vmem S1024x512 .bf16) (harg2 : arg2.IsWhole) (arg3 : Memref sig .tc .vmem S1024x1 .f32) (harg3 : arg3.IsWhole) (arg4 : Memref sig .tc .vmem S2048x512 .bf16) (harg4 : arg4.IsWhole) (arg5 : Memref sig .tc .vmem S1024x2048 .f32) (harg5 : arg5.IsWhole) (hc0 : cond1_0 i)
    (x0 : Vec F S1024x512 .bf16) (x1 : Vec F S1024x1 .f32) (x2 : Vec F S2048x512 .bf16) :
    out1_A_3 c i arg2 harg2 arg3 harg3 arg4 harg4 arg5 harg5 hc0 x0 x1 x2 = k1_pay2 x0 x1 x2 (k1_pay1 (F := F)) := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  rw [View.canon_cons_unit_zero (S := S1024x2048) hz2, View.readCov_unit_zero (S := S1024x2048) _ hz2]
  simp only [View.readAt_eq_ld, harg2.read_unread, harg3.read_unread, harg4.read_unread,
    View.ld_unit_zero (S := S1024x512) hz2, View.ld_unit_zero (S := S1024x1) hz2, View.ld_unit_zero (S := S2048x512) hz2]

end Cert.KernelIdeal.Hand

end
-- ==== Proof.PayDown.lean ====
/-
  The pure values the second program stores, read at an index: the zero block, and the accumulator plus
  the product of the hidden tile, rounded again at a given per-row scale, with a weight tile.
-/
import proofs.«162558_j39865886442066_2_alg».proof.Proof.Gen.KernelIdeal.Skeleton
import proofs.«162558_j39865886442066_2_alg».proof.Proof.Spec
import proofs.«162558_j39865886442066_2_alg».proof.Proof.LibMatmulNT
import proofs.«162558_j39865886442066_2_alg».proof.Proof.LibKeepdims

noncomputable section

namespace Cert.KernelIdeal.PayVal

open Cert.KernelIdeal Cert.KernelIdeal.Gen Idealize.ShloMosaic Idealize.ShloMosaic.ValueIdx

/-- The second program's product of a row block with a tile whose rows are contracted, at an index. -/
theorem mm_down (l : FVec Ideal S1024x512 .bf16) (r : FVec Ideal S2048x512 .bf16) (p : Fin 1024) (o : Fin 2048) :
    matmul dot_S1024x512_S2048x512_S1024x2048_1_1_0_0_n_n none l r (constant (F := Ideal) S1024x2048 .f32 0x00000000#32) (ix2 p o)
      = ∑ j : Fin 512, l (ix2 p j) * r (ix2 o j) :=
  matmul_transposedRhs_zero_apply 1024 512 2048 none l r p o

/-- The accumulator starts at zero. -/
theorem pay1d_apply (p : Fin 1024) (o : Fin 2048) : k1_pay1 (F := Ideal) (ix2 p o) = 0 := by
  unfold k1_pay1
  show Ideal.ofBits .f32 0x00000000#32 = 0
  exact Ideal.ofBits_zero_f32

/-- One step of the accumulation: the old value plus the hidden tile, rounded at the given scale of its row,
    against the rows of the weight tile. -/
theorem pay2d_apply (v3 : Vec Ideal S1024x512 .bf16) (v6 : Vec Ideal S1024x1 .f32) (v18 : Vec Ideal S2048x512 .bf16)
    (v20 : Vec Ideal S1024x2048 .f32) (p : Fin 1024) (o : Fin 2048) :
    k1_pay2 (F := Ideal) v3 v6 v18 v20 (ix2 p o)
      = v20 (ix2 p o) + ∑ j : Fin 512, QMlp.quant (v6 (ix2 p (0 : Fin 1))) (v3 (ix2 p j)) * v18 (ix2 o j) := by
  unfold k1_pay2
  simp only [shapeCast_self]
  rw [addf_apply, mm_down]
  refine congrArg (v20 (ix2 p o) + ·) (Finset.sum_congr rfl fun j _ => ?_)
  refine congrArg (· * v18 (ix2 o j)) ?_
  show min (Ideal.ofBits .f32 0x42FE0000#32) (max (Ideal.ofBits .f32 0xC2FE0000#32)
      (Ideal.liftRound Ideal.roundHalfEven (Ideal.div (v3 (ix2 p j)) (broadcastTo S1024x512 v6 broadcasts_S1024x1_S1024x512 (ix2 p j)))))
      * broadcastTo S1024x512 v6 broadcasts_S1024x1_S1024x512 (ix2 p j) = _
  rw [broadcastTo_a1_ab_apply]
  rfl

end Cert.KernelIdeal.PayVal

end
-- ==== Proof.LibRangeBlocks.lean ====
/-
  A sum over consecutive blocks, with the terms numbered by naturals.

  The first b·n terms of a sequence in a commutative additive monoid, added block by block — n consecutive blocks
  of b terms, term q of block p being term b·p + q — give the sum of the first b·n terms. No subtraction and no
  cancellation is used, so the law holds on the extended reals with their infinities; it joins a value accumulated
  over a grid of row blocks to one sum over all rows, whatever the block length.
-/
import Mathlib.Algebra.BigOperators.Intervals

open scoped BigOperators

namespace Cert.LibRangeBlocks

/-- A sum over n consecutive blocks of b terms is the sum over the first b·n terms. -/
theorem sum_range_blocks {M : Type*} [AddCommMonoid M] (f : ℕ → M) (b n : ℕ) :
    ∑ p ∈ Finset.range n, ∑ q ∈ Finset.range b, f (b * p + q) = ∑ r ∈ Finset.range (b * n), f r := by
  induction n with
  | zero => simp
  | succ n ih => rw [Finset.sum_range_succ, ih, Nat.mul_succ, Finset.sum_range_add]

end Cert.LibRangeBlocks
-- ==== Proof.Down.Value.lean ====
/-
  The value of the second kernel region over the extended reals: after the inner tile k of a row block the
  output block holds the contraction's first k+1 tiles added up, so the result array ends holding, at (r, o),
  the whole contraction of the hidden row r — re-rounded at the row's scale — with row o of the second weight
  matrix. The tiles are joined to one sum with no cancellation, so nothing needs to be finite here.
-/
import proofs.«162558_j39865886442066_2_alg».proof.Proof.Down.Pieces
import proofs.«162558_j39865886442066_2_alg».proof.Proof.PayDown
import proofs.«162558_j39865886442066_2_alg».proof.Proof.LibRangeBlocks
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx Cert.KernelIdeal.PayVal

variable (V : (c : Dev nD) → (b : Ref sig .tc) → Buf (Elt Ideal) ((c : Thread nD τ).loc b))

/-- The printed index maps of the second region, decided over its grid: the row block is the point's quotient by the
    11 inner tiles, the inner tile its remainder. -/
theorem idx1 : ∀ t : Fin cfg1.N, win1_0.index t (0 : Fin 2) = t.val / 11 ∧ win1_0.index t (1 : Fin 2) = t.val % 11
    ∧ win1_1.index t (0 : Fin 2) = t.val / 11 ∧ win1_1.index t (1 : Fin 2) = 0
    ∧ win1_2.index t (0 : Fin 2) = 0 ∧ win1_2.index t (1 : Fin 2) = t.val % 11
    ∧ win1_3.index t (0 : Fin 2) = t.val / 11 ∧ win1_3.index t (1 : Fin 2) = 0 :=
  (by decide +kernel : ∀ t : Fin grid1.N, _)

/-- The array row behind row p of the point's row block, and the array column behind column j of its inner tile. -/
def row1 (t : Fin cfg1.N) (p : Fin 1024) : Fin 8192 :=
  ⟨1024 * (t.val / 11) + p.val, by have := t.isLt; have h : cfg1.N = 88 := N_1; have := p.isLt; omega⟩
def col1 (t : Fin cfg1.N) (j : Fin 512) : Fin 5632 := ⟨512 * (t.val % 11) + j.val, by have := j.isLt; omega⟩

theorem iblk1_0_apply (c : Dev nD) (t : Fin cfg1.N) (p : Fin 1024) (j : Fin 512) :
    iblk1 V c 0 t (ix2 p j) = V c main_v1_0 (ix2 (row1 t p) (col1 t j)) := by
  unfold iblk1
  rw [View.read_apply]
  show V c main_v1_0 _ = V c main_v1_0 _
  congr 1
  funext a; apply Fin.ext
  match a with
  | ⟨0, _⟩ => show win1_0.index t 0 * 1024 + 1 * p.val = 1024 * (t.val / 11) + p.val; rw [(idx1 t).1]; omega
  | ⟨1, _⟩ => show win1_0.index t 1 * 512 + 1 * j.val = 512 * (t.val % 11) + j.val; rw [(idx1 t).2.1]; omega

theorem iblk1_1_apply (c : Dev nD) (t : Fin cfg1.N) (p : Fin 1024) :
    iblk1 V c 1 t (ix2 p (0 : Fin 1)) = V c main_v1_1 (ix2 (row1 t p) (0 : Fin 1)) := by
  unfold iblk1
  rw [View.read_apply]
  show V c main_v1_1 _ = V c main_v1_1 _
  congr 1
  funext a; apply Fin.ext
  match a with
  | ⟨0, _⟩ => show win1_1.index t 0 * 1024 + 1 * p.val = 1024 * (t.val / 11) + p.val; rw [(idx1 t).2.2.1]; omega
  | ⟨1, _⟩ => show win1_1.index t 1 * 1 + 1 * 0 = 0; rw [(idx1 t).2.2.2.1]

theorem iblk1_2_apply (c : Dev nD) (t : Fin cfg1.N) (o : Fin 2048) (j : Fin 512) :
    iblk1 V c 2 t (ix2 o j) = V c main_v15 (ix2 o (col1 t j)) := by
  unfold iblk1
  rw [View.read_apply]
  show V c main_v15 _ = V c main_v15 _
  congr 1
  funext a; apply Fin.ext
  match a with
  | ⟨0, _⟩ => show win1_2.index t 0 * 2048 + 1 * o.val = o.val; rw [(idx1 t).2.2.2.2.1]; omega
  | ⟨1, _⟩ => show win1_2.index t 1 * 512 + 1 * j.val = 512 * (t.val % 11) + j.val; rw [(idx1 t).2.2.2.2.2.1]; omega

/-- What the output block holds after a first inner tile, and after a later one. -/
theorem outsAt1_first (c : Dev nD) (t : Fin cfg1.N) (h0 : t.val % 11 = 0) :
    outsAt1 V c t.val t.isLt = k1_pay2 (iblk1 V c 0 t) (iblk1 V c 1 t) (iblk1 V c 2 t) (k1_pay1 (F := Ideal)) :=
  (outsAt1_A V c t h0).trans (out1_A_3_eq ..)
theorem outsAt1_next (c : Dev nD) (t : Fin cfg1.N) (h0 : ¬t.val % 11 = 0) :
    outsAt1 V c t.val t.isLt = k1_pay2 (iblk1 V c 0 t) (iblk1 V c 1 t) (iblk1 V c 2 t)
      (outsAt1 V c (t.val - 1) (Nat.lt_of_le_of_lt (Nat.sub_le _ _) t.isLt)) :=
  (outsAt1_B V c t h0).trans (out1_B_3_eq ..)

/-- Term J of the contraction for result entry (r, o): the hidden entry re-rounded at its row's scale, times the weight. -/
def term1 (c : Dev nD) (r : Fin 8192) (o : Fin 2048) (J : ℕ) : EReal :=
  if h : J < 5632 then QMlp.quant (V c main_v1_1 (ix2 r (0 : Fin 1))) (V c main_v1_0 (ix2 r ⟨J, h⟩)) * V c main_v15 (ix2 o ⟨J, h⟩) else 0

/-- One accumulation step at an index: the running contents plus the point's tile of the contraction. -/
theorem step1_apply (c : Dev nD) (t : Fin cfg1.N) (acc : Vec Ideal S1024x2048 .f32) (p : Fin 1024) (o : Fin 2048) :
    k1_pay2 (F := Ideal) (iblk1 V c 0 t) (iblk1 V c 1 t) (iblk1 V c 2 t) acc (ix2 p o)
      = acc (ix2 p o) + ∑ j ∈ Finset.range 512, term1 V c (row1 t p) o (512 * (t.val % 11) + j) := by
  rw [pay2d_apply, iblk1_1_apply, Finset.sum_range]
  congr 1
  refine Finset.sum_congr rfl fun j _ => ?_
  rw [iblk1_0_apply, iblk1_2_apply]
  unfold term1
  rw [dif_pos (by have := j.isLt; omega)]
  rfl

/-- After position n the output block holds, at (p, o), the first n % 11 + 1 tiles of the contraction. -/
theorem outsAt1_apply (c : Dev nD) : ∀ (n : ℕ) (h : n < cfg1.N) (p : Fin 1024) (o : Fin 2048),
    outsAt1 V c n h (ix2 p o) = 0 + ∑ k ∈ Finset.range (n % 11 + 1), ∑ j ∈ Finset.range 512, term1 V c (row1 ⟨n, h⟩ p) o (512 * k + j)
  | 0, h, p, o => by
    rw [outsAt1_first V c ⟨0, h⟩ rfl, step1_apply, pay1d_apply]
    simp only [Nat.zero_mod, Finset.sum_range_one, Nat.zero_add]
  | n + 1, h, p, o => by
    by_cases h0 : (n + 1) % 11 = 0
    · rw [outsAt1_first V c ⟨n + 1, h⟩ h0, step1_apply, pay1d_apply]
      dsimp only
      rw [h0]
      simp only [Finset.sum_range_one, Nat.zero_add]
    · rw [outsAt1_next V c ⟨n + 1, h⟩ h0, step1_apply]
      show outsAt1 V c n _ (ix2 p o) + _ = _
      rw [outsAt1_apply c n _ p o]
      have e1 : (n + 1) % 11 = n % 11 + 1 := by omega
      have e2 : row1 ⟨n, Nat.lt_of_succ_lt h⟩ p = row1 ⟨n + 1, h⟩ p := by
        unfold row1; apply Fin.ext; show 1024 * (n / 11) + p.val = 1024 * ((n + 1) / 11) + p.val; omega
      dsimp only
      rw [e1, Finset.sum_range_succ (n := n % 11 + 1), e2, add_assoc]

/-- All eleven tiles are the whole contraction. -/
theorem sum_term1 (c : Dev nD) (r : Fin 8192) (o : Fin 2048) :
    ∑ k ∈ Finset.range 11, ∑ j ∈ Finset.range 512, term1 V c r o (512 * k + j)
      = ∑ J : Fin 5632, QMlp.quant (V c main_v1_1 (ix2 r (0 : Fin 1))) (V c main_v1_0 (ix2 r J)) * V c main_v15 (ix2 o J) := by
  rw [Cert.LibRangeBlocks.sum_range_blocks (term1 V c r o) 512 11, show 512 * 11 = 5632 from rfl, Finset.sum_range]
  refine Finset.sum_congr rfl fun J _ => ?_
  unfold term1; rw [dif_pos J.isLt]

/-- The second region's result array: each hidden row re-rounded at its scale against each row of the second weight matrix. -/
def OUT1 (c : Dev nD) : S8192x2048.Idx → EReal := fun i =>
  ∑ J : Fin 5632, QMlp.quant (V c main_v1_1 (ix2 (i 0) (0 : Fin 1))) (V c main_v1_0 (ix2 (i 0) J)) * V c main_v15 (ix2 (i 1) J)

theorem mem_blk1_3 (t : Fin cfg1.N) (i : S8192x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v16).slice (win1_3.rect t)).set ↔ _
  rw [View.set_slice_whole, Rect.mem_set_unit]
  exact Iff.rfl

/-- What a last inner tile writes back is its row block of `OUT1`. -/
theorem flushed1_3_eq (c : Dev nD) (t : Fin cfg1.N) (hf : (cfg1.win 3).flush t = true) :
    (dat1 V c).flushed 3 t = ((cfg1.win 3).blk t).view.read (Elt Ideal) (OUT1 V c) := by
  have h10 : t.val % 11 = 10 := (flush1_3 t).mp hf
  show (cfg1.win 3).cut (grid1.coords t) ((dat1 V c).after 3 t) = _
  rw [after1_3]
  funext j
  obtain ⟨p, o, rfl⟩ : ∃ (p : Fin 1024) (o : Fin 2048), j = ix2 p o := ⟨j 0, j 1, eq_ix2 j⟩
  show outsAt1 V c t.val t.isLt (ix2 p o) = OUT1 V c (((cfg1.win 3).blk t).view.emb (ix2 p o))
  have e : ((cfg1.win 3).blk t).view.emb (ix2 p o) = ix2 (row1 t p) o := by
    funext a; apply Fin.ext
    match a with
    | ⟨0, _⟩ => show win1_3.index t 0 * 1024 + 1 * p.val = 1024 * (t.val / 11) + p.val; rw [(idx1 t).2.2.2.2.2.2.1]; omega
    | ⟨1, _⟩ => show win1_3.index t 1 * 2048 + 1 * o.val = o.val; rw [(idx1 t).2.2.2.2.2.2.2]; omega
  rw [outsAt1_apply, e, zero_add]
  rw [h10, sum_term1]
  rfl

/-- Every row of the result array is in some last inner tile's block. -/
theorem cover1_3 (c : Dev nD) (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 88 := N_1
  let t : Fin cfg1.N := ⟨11 * ((i 0).val / 1024) + 10, by omega⟩
  have ht : t.val = 11 * ((i 0).val / 1024) + 10 := rfl
  refine ⟨t, (flush1_3 t).mpr (by omega), ?_⟩
  rw [mem_blk1_3]
  intro a
  match a with
  | ⟨0, _⟩ => show win1_3.index t 0 * 1024 ≤ (i 0).val ∧ (i 0).val < win1_3.index t 0 * 1024 + 1024
              rw [(idx1 t).2.2.2.2.2.2.1]; omega
  | ⟨1, _⟩ => show win1_3.index t 1 * 2048 ≤ (i 1).val ∧ (i 1).val < win1_3.index t 1 * 2048 + 2048
              rw [(idx1 t).2.2.2.2.2.2.2]; omega

/-- So the second region's result array ends at `OUT1`. -/
theorem final1_3 (c : Dev nD) : (dat1 V c).arrAt 3 cfg1.N = OUT1 V c :=
  (dat1 V c).arrAt_eq_of_cover 3 (OUT1 V c) (flushed1_3_eq V c) (cover1_3 c)

end Cert.KernelIdeal.Hand

end
-- ==== Proof.RefFinite.lean ====
/-
  Real entries among the extended reals, and the rounding functions of the specification at them.

  Over the extended reals x + (q - x) = q whenever x is a real number, whatever q is. The scale of a family of
  reals is a positive real, an entry rounded at a real scale is a real (it is a clipped value times the scale),
  so a rounded family of reals is a family of reals; sums and products of reals are reals, and so is the gated
  activation of a real.
-/
import proofs.«162558_j39865886442066_2_alg».proof.Proof.Spec
import Idealize.ShloMosaic.PureOps.Ideal.Laws

noncomputable section

namespace QMlp

open Idealize.ShloMosaic

/-- An extended real that is the image of a real number. -/
def IsR (x : EReal) : Prop := ∃ r : ℝ, x = (r : EReal)

theorem isR_of_ne {x : EReal} (ht : x ≠ ⊤) (hb : x ≠ ⊥) : IsR x := ⟨x.toReal, (EReal.coe_toReal ht hb).symm⟩

theorem IsR.ne_top {x : EReal} (h : IsR x) : x ≠ ⊤ := by obtain ⟨r, rfl⟩ := h; exact EReal.coe_ne_top r

theorem IsR.ne_bot {x : EReal} (h : IsR x) : x ≠ ⊥ := by obtain ⟨r, rfl⟩ := h; exact EReal.coe_ne_bot r

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} (s : Finset ι) (f : ι → EReal) (h : ∀ i ∈ s, IsR (f i)) : IsR (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

/-- Adding back what was subtracted: exact at a real x, whatever q is. -/
theorem add_sub_cancel_of_isR {x : EReal} (hx : IsR x) (q : EReal) : x + (q - x) = q := by
  obtain ⟨r, rfl⟩ := hx
  induction q using EReal.rec with
  | bot => rw [EReal.bot_sub, EReal.add_bot]
  | coe a => rw [← EReal.coe_sub, ← EReal.coe_add]; congr 1; ring
  | top => rw [EReal.top_sub_coe, EReal.add_top_of_ne_bot (EReal.coe_ne_bot r)]

/-! ### The three literals -/

theorem qhi_eq : qhi = ((127 : ℝ) : EReal) := by
  simp [qhi, Ideal.ofBits, Ideal.ieee, -EReal.coe_mul]; norm_num

theorem qlo_eq : qlo = ((-127 : ℝ) : EReal) := by
  simp [qlo, Ideal.ofBits, Ideal.ieee, -EReal.coe_mul]; norm_num

theorem qeps_pos : ∃ e : ℝ, 0 < e ∧ qeps = (e : EReal) := by
  refine ⟨(2 ^ 23 + 2870391 : ℕ) * (2 : ℝ) ^ ((100 : ℤ) - (2 ^ (8 - 1) - 1) - 23), by positivity, ?_⟩
  simp [qeps, Ideal.ofBits, Ideal.ieee, -EReal.coe_mul]

theorem one_eq : Ideal.ofBits .f32 0x3F800000#32 = (1 : EReal) := by
  rw [← EReal.coe_one]
  simp [Ideal.ofBits, Ideal.ieee, -EReal.coe_mul, -EReal.coe_one]; norm_num

/-! ### The scale and the rounding -/

variable {K : Type} [Fintype K]

theorem amax_ne_top (v : K → EReal) (hv : ∀ k, IsR (v k)) : amax v ≠ ⊤ := by
  apply ne_of_lt
  unfold amax
  rw [Finset.fold_max_lt]
  refine ⟨bot_lt_top, fun k _ => ?_⟩
  obtain ⟨r, hr⟩ := hv k
  rw [hr, ← EReal.coe_neg]
  exact max_lt (EReal.coe_lt_top _) (EReal.coe_lt_top _)

/-- The scale of a family of reals is a positive real. -/
theorem scaleOf_pos (v : K → EReal) (hv : ∀ k, IsR (v k)) : ∃ s : ℝ, 0 < s ∧ scaleOf v = (s : EReal) := by
  obtain ⟨e, he, hq⟩ := qeps_pos
  have hd : Ideal.div (amax v) qhi ≠ ⊤ := by
    rw [qhi_eq, Ideal.div_coe (by norm_num : (127 : ℝ) ≠ 0)]
    intro h
    rcases (EReal.mul_eq_top _ _).mp h with h' | h' | h' | h'
    · exact absurd h'.2 (not_lt.mpr (EReal.coe_nonneg.mpr (by norm_num)))
    · exact absurd h'.2 (EReal.coe_ne_bot _)
    · exact amax_ne_top v hv h'.1
    · exact absurd h'.2 (EReal.coe_ne_top _)
  have hs : IsR (scaleOf v) := by
    unfold scaleOf
    refine isR_of_ne ?_ ?_
    · rw [hq]; intro h
      rcases max_choice (Ideal.div (amax v) qhi) (e : EReal) with h' | h'
      · exact hd (h' ▸ h)
      · exact EReal.coe_ne_top e (h' ▸ h)
    · rw [hq]; exact ne_of_gt (lt_of_lt_of_le (EReal.bot_lt_coe e) (le_max_right _ _))
  obtain ⟨s, hs'⟩ := hs
  refine ⟨s, ?_, hs'⟩
  have : (e : EReal) ≤ (s : EReal) := by rw [← hs', ← hq]; exact le_max_right _ _
  exact lt_of_lt_of_le he (EReal.coe_le_coe_iff.mp this)

/-- An entry rounded at a real scale is a real. -/
theorem quant_isR {s : EReal} (hs : IsR s) (y : EReal) : IsR (quant s y) := by
  unfold quant
  refine IsR.mul (isR_of_ne ?_ ?_) hs
  · exact ne_of_lt (lt_of_le_of_lt (min_le_left _ _) (by rw [qhi_eq]; exact EReal.coe_lt_top _))
  · have h1 : (⊥ : EReal) < qlo := by rw [qlo_eq]; exact EReal.bot_lt_coe _
    have h2 : qlo ≤ qhi := by rw [qhi_eq, qlo_eq]; exact EReal.coe_le_coe_iff.mpr (by norm_num)
    exact ne_of_gt (lt_of_lt_of_le h1 (le_min h2 (le_max_left _ _)))

theorem fq_isR (v : K → EReal) (hv : ∀ k, IsR (v k)) (k : K) : IsR (fq v k) := by
  obtain ⟨s, _, hs⟩ := scaleOf_pos v hv
  exact quant_isR ⟨s, hs⟩ _

/-- The straight-through form of the rounding is the rounding, at a family of reals. -/
theorem ste_eq (v : K → EReal) (hv : ∀ k, IsR (v k)) (k : K) : v k + (fq v k - v k) = fq v k :=
  add_sub_cancel_of_isR (hv k) _

theorem silu_isR {g : EReal} (hg : IsR g) : IsR (silu g) := by
  obtain ⟨r, rfl⟩ := hg
  unfold silu
  rw [Ideal.logistic_coe]
  exact IsR.mul ⟨r, rfl⟩ ⟨_, rfl⟩

section Row

variable (xr : Fin 2048 → EReal) (w1 : Fin 11264 → Fin 2048 → EReal)

theorem proj_isR (hx : ∀ k, IsR (xr k)) (hw : ∀ o k, IsR (w1 o k)) (o : Fin 11264) : IsR (proj xr w1 o) :=
  IsR.sum _ _ fun k _ => (fq_isR xr hx k).mul (fq_isR (w1 o) (hw o) k)

theorem hid_isR (hx : ∀ k, IsR (xr k)) (hw : ∀ o k, IsR (w1 o k)) (j : Fin 5632) : IsR (hid xr w1 j) :=
  (silu_isR (proj_isR xr w1 hx hw _)).mul (proj_isR xr w1 hx hw _)

end Row

end QMlp

end
-- ==== Proof.LibHostRowMax.lean ====
/-
  The host's one-operand reduce with a maximum body along the second axis of an [a, b] matrix, read at row r:
  the fold of max, from the scalar initial value, over the b entries of that row. The fold is over the finite
  set of all columns, so it does not depend on any order.
-/
import Idealize.ShloMosaic.Lib.Pipeline.Value
import Idealize.ShloMosaic.Lib.ValueIdx
import Idealize.ShloMosaic.PureOps.Ideal.Laws

namespace Cert.LibHostRowMax

open Idealize.ShloMosaic Idealize.ShloMosaic.ValueIdx

/-- Entry (r, k) of the matrix is the entry at row r with k put back on the reduced second axis. -/
theorem lift_row {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The host's maximum along the second axis, from its scalar initial value, at row r. -/
theorem host_max_rows_apply {a b : ℕ} (x : (⟨2, ![a, b]⟩ : Shape).Idx → EReal) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (init ix0) (fun k => x (ix2 r k)) := by
  rw [Host.reduce_eq_fold_single (FloatOps.maximumf (F := Ideal) (φ := .f32)) x init h' h hu (ix1 r)]
  show Finset.fold max _ _ Finset.univ = _
  rw [show init (Shape.Idx.first hu) = init ix0 from congrArg init (funext fun q => q.elim0)]
  refine congrArg (fun f => Finset.fold max _ f Finset.univ) ?_
  exact funext fun k => congrArg x (lift_row h r k)

end Cert.LibHostRowMax
-- ==== Proof.HostSide.lean ====
/-
  The host operations of the kernel program read at an index: the input reshaped into rows, the second weight
  matrix rounded row by row, the result reshaped back, and the buffers the host stretches leave alone.
-/
import proofs.«162558_j39865886442066_2_alg».proof.Proof.Run
import proofs.«162558_j39865886442066_2_alg».proof.Proof.Spec
import proofs.«162558_j39865886442066_2_alg».proof.Proof.RefFinite
import proofs.«162558_j39865886442066_2_alg».proof.Proof.LibHostRowMax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

theorem x2_apply (c : Dev nD) (r : Fin 8192) (k : Fin 2048) :
    W1 m c main_v0 (ix2 r k)
      = m ((c : Thread nD τ).loc main_arg0) (ix3 (⟨r.val / 2048, by omega⟩ : Fin 4) (⟨r.val % 2048, by omega⟩ : Fin 2048) k) := by
  have e : (W1 m c main_v0 : S8192x2048.Idx → EReal)
      = shapeCast S8192x2048 (m ((c : Thread nD τ).loc main_arg0)) shapeCasts_S4x2048x2048_S8192x2048 := by
    show StableHlo.after hostOps0 (W0 m c) (Proc.devRef .tc main_v0) = _
    after_results
    rfl
  rw [e]
  refine shapeCast_apply _ _ _ _ ?_
  show (S4x2048x2048.rowMajor (ix3 (⟨r.val / 2048, by omega⟩ : Fin 4) (⟨r.val % 2048, by omega⟩ : Fin 2048) k)).val
    = (S8192x2048.rowMajor (ix2 r k)).val
  rw [Shape.rowMajor_val_three, Shape.rowMajor_val_two]
  show (r.val / 2048 * 2048 + r.val % 2048) * 2048 + k.val = r.val * 2048 + k.val
  omega

theorem out_apply (c : Dev nD) (b : Fin 4) (s : Fin 2048) (o : Fin 2048) :
    W9 m c main_v17 (ix3 b s o) = W8 m c main_v16 (ix2 (⟨2048 * b.val + s.val, by omega⟩ : Fin 8192) o) := by
  have e : (W9 m c main_v17 : S4x2048x2048.Idx → EReal)
      = shapeCast S4x2048x2048 (W8 m c main_v16) shapeCasts_S8192x2048_S4x2048x2048 := by
    show StableHlo.after hostOps2 (W8 m c) (Proc.devRef .tc main_v17) = _
    after_results
    rfl
  rw [e]
  refine shapeCast_apply _ _ _ _ ?_
  show (S8192x2048.rowMajor (ix2 (⟨2048 * b.val + s.val, by omega⟩ : Fin 8192) o)).val
    = (S4x2048x2048.rowMajor (ix3 b s o)).val
  rw [Shape.rowMajor_val_three, Shape.rowMajor_val_two]
  show (2048 * b.val + s.val) * 2048 + o.val = (b.val * 2048 + s.val) * 2048 + o.val
  omega

theorem W7_v1_0 (c : Dev nD) : W7 m c main_v1_0 = W2 m c main_v1_0 :=
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide))

theorem W7_v1_1 (c : Dev nD) : W7 m c main_v1_1 = W2 m c main_v1_1 :=
  (StableHlo.after_of_writes_sub hostOps1_4 _ hostOps1_4_writes (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide))

theorem W1_arg1 (c : Dev nD) : W1 m c main_arg1 = m ((c : Thread nD τ).loc main_arg1) :=
  StableHlo.after_of_writes_sub hostOps0 _ hostOps0_writes (by decide)

/-! ## The second weight matrix, rounded row by row -/

/-- The pattern of -∞. -/
theorem neg_inf_bits : Ideal.ofBits .f32 0xFF800000#32 = (⊥ : EReal) := by
  simp [Ideal.ofBits, Ideal.ieee]

section Rounded

variable (X : FVec Ideal S2048x5632 .f32)

/-- The largest magnitude of each row, as the host takes it. -/
def kRowMax : FVec Ideal S2048 .f32 :=
  Host.reduce (FloatOps.maximumf (F := Ideal) (φ := .f32)) (Host.absf X : FVec Ideal S2048x5632 .f32)
    (constant (F := Ideal) S_ .f32 0xFF800000#32 : FVec Ideal S_ .f32) reducesTo_S2048x5632_S2048_d1 h_S_

/-- The scale of each row, as the host takes it. -/
def kScale : FVec Ideal S2048x1 .f32 :=
  maximumf
    (Host.divf (broadcastInDim S2048x1 ![0] bcast_S2048_S2048x1_0 (kRowMax X))
      (broadcastInDim S2048x1 ![] bcast_S_S2048x1 (constant (F := Ideal) S_ .f32 0x42FE0000#32)))
    (broadcastInDim S2048x1 ![] bcast_S_S2048x1 (constant (F := Ideal) S_ .f32 0x322BCC77#32))

/-- The rounded matrix, as the host takes it. -/
def kQuant : FVec Ideal S2048x5632 .bf16 :=
  truncf .bf16
    (mulf
      (minimumf (broadcastInDim S2048x5632 ![] bcast_S_S2048x5632 (id (constant (F := Ideal) S_ .f32 0x42FE0000#32)))
        (maximumf (broadcastInDim S2048x5632 ![] bcast_S_S2048x5632 (id (constant (F := Ideal) S_ .f32 0xC2FE0000#32)))
          (Host.roundeven (Host.divf X (broadcastInDim S2048x5632 ![0, 1] bcast_S2048x1_S2048x5632_0_1 (kScale X))))))
      (broadcastInDim S2048x5632 ![0, 1] bcast_S2048x1_S2048x5632_0_1 (kScale X)))
    bitsLt_bf16_f32

theorem kRowMax_apply (o : Fin 2048) : kRowMax X (ix1 o) = QMlp.amax (fun j => X (ix2 o j)) := by
  unfold kRowMax
  rw [Cert.LibHostRowMax.host_max_rows_apply _ _ _ (by decide) _ o]
  show Finset.univ.fold max (Ideal.ofBits .f32 0xFF800000#32) (fun k => max (X (ix2 o k)) (-(X (ix2 o k)))) = _
  rw [neg_inf_bits]; rfl

theorem kScale_apply (o : Fin 2048) : kScale X (ix2 o (0 : Fin 1)) = QMlp.scaleOf (fun j => X (ix2 o j)) := by
  have eb : broadcastInDim S2048x1 ![0] bcast_S2048_S2048x1_0 (kRowMax X) (ix2 o (0 : Fin 1)) = QMlp.amax (fun j => X (ix2 o j)) := by
    rw [broadcastInDim_apply _ bcast_S2048_S2048x1_0 (kRowMax X) (ix2 o (0 : Fin 1)) (ix1 o) (fun a => match a with
      | ⟨0, _⟩ => by show o.val = if (2048 : Nat) = 1 then 0 else o.val; rw [if_neg (by decide)]), kRowMax_apply]
  exact (show kScale X (ix2 o (0 : Fin 1))
      = max (Ideal.div (broadcastInDim S2048x1 ![0] bcast_S2048_S2048x1_0 (kRowMax X) (ix2 o (0 : Fin 1))) QMlp.qhi) QMlp.qeps from rfl).trans
    (by rw [eb]; rfl)

theorem kQuant_apply (o : Fin 2048) (j : Fin 5632) : kQuant X (ix2 o j) = QMlp.fq (fun j' => X (ix2 o j')) j := by
  have eb : broadcastInDim S2048x5632 ![0, 1] bcast_S2048x1_S2048x5632_0_1 (kScale X) (ix2 o j) = QMlp.scaleOf (fun j' => X (ix2 o j')) := by
    rw [broadcastInDim_apply _ bcast_S2048x1_S2048x5632_0_1 (kScale X) (ix2 o j) (ix2 o (0 : Fin 1)) (fun a => match a with
      | ⟨0, _⟩ => by show o.val = if (2048 : Nat) = 1 then 0 else o.val; rw [if_neg (by decide)]
      | ⟨1, _⟩ => by show 0 = if (1 : Nat) = 1 then 0 else j.val; rw [if_pos rfl]), kScale_apply]
  exact (show kQuant X (ix2 o j)
      = QMlp.quant (broadcastInDim S2048x5632 ![0, 1] bcast_S2048x1_S2048x5632_0_1 (kScale X) (ix2 o j)) (X (ix2 o j)) from rfl).trans
    (by rw [eb]; rfl)

end Rounded

/-- The rounded second weight matrix is the host's rounding of the argument. -/
theorem W7_v15_eq (c : Dev nD) :
    (W7 m c main_v15 : S2048x5632.Idx → EReal) = kQuant (W2 m c main_arg2) := by
  show StableHlo.after hostOps1_4 (W6 m c) (Proc.devRef .tc main_v15) = _
  after_results
  rfl

theorem w2q_apply (c : Dev nD) (o : Fin 2048) (j : Fin 5632) :
    W7 m c main_v15 (ix2 o j) = QMlp.fq (fun j' : Fin 5632 => m ((c : Thread nD τ).loc main_arg2) (ix2 o j')) j := by
  have e2 : W2 m c main_arg2 = m ((c : Thread nD τ).loc main_arg2) :=
    (W2_of m c main_arg2 (by decide)).trans (StableHlo.after_of_writes_sub hostOps0 _ hostOps0_writes (by decide))
  rw [show W7 m c main_v15 (ix2 o j) = kQuant (W2 m c main_arg2) (ix2 o j) from congrFun (W7_v15_eq m c) _, e2]
  exact kQuant_apply _ o j

end Cert.KernelIdeal.Hand

end
-- ==== Proof.KernelValue.lean ====
/-
  The kernel program's result over the extended reals is the specification's function of the three argument arrays:
  the first region leaves the hidden rows and their rounding scales, the host rounds the second weight matrix row by
  row, the second region contracts the re-rounded hidden rows against it, and the two reshapes only renumber rows.
-/
import proofs.«162558_j39865886442066_2_alg».proof.Proof.Run
import proofs.«162558_j39865886442066_2_alg».proof.Proof.Frames
import proofs.«162558_j39865886442066_2_alg».proof.Proof.Up.Value
import proofs.«162558_j39865886442066_2_alg».proof.Proof.Down.Value
import proofs.«162558_j39865886442066_2_alg».proof.Proof.HostSide
import proofs.«162558_j39865886442066_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt Ideal) ℓ)

/-- What the second region finds in the hidden-rows array and the scales array: what the first region left. -/
theorem U7_hidden (c : Dev nD) : (U7 m c main_v1_0 : S8192x5632.Idx → EReal) = H0 (U1 m) c :=
  (W7_v1_0 m c).trans ((W2_v1_0 m c).trans (final0_3 (U1 m) c))
theorem U7_scale (c : Dev nD) : (U7 m c main_v1_1 : S8192x1.Idx → EReal) = S0 (U1 m) c :=
  (W7_v1_1 m c).trans ((W2_v1_1 m c).trans (final0_4 (U1 m) c))

/-- Row 2048·b + s of the reshaped input is row (b, s) of the input. -/
theorem xrow_eq (c : Dev nD) (b : Fin 4) (s : Fin 2048) :
    xrow (U1 m) c (⟨2048 * b.val + s.val, by omega⟩ : Fin 8192) = fun k => m ((c : Thread nD τ).loc main_arg0) (ix3 b s k) := by
  funext k
  show W1 m c main_v0 (ix2 _ k) = _
  rw [x2_apply]
  congr 1
  have hb : (2048 * b.val + s.val) / 2048 = b.val := by omega
  have hs : (2048 * b.val + s.val) % 2048 = s.val := by omega
  funext a
  match a with
  | ⟨0, _⟩ => exact Fin.ext hb
  | ⟨1, _⟩ => exact Fin.ext hs
  | ⟨2, _⟩ => rfl

theorem w1rows_eq (c : Dev nD) : w1rows (U1 m) c = fun o k => m ((c : Thread nD τ).loc main_arg1) (ix2 o k) := by
  funext o k
  show W1 m c main_arg1 (ix2 o k) = _
  rw [W1_arg1]

/-- THE KERNEL'S VALUE: the result buffer ends holding the specification's function of the arguments. -/
theorem kernel_value (c : Dev nD) :
    (W9 m c main_v17 : S4x2048x2048.Idx → EReal)
      = QMlp.G (m ((c : Thread nD τ).loc main_arg0)) (m ((c : Thread nD τ).loc main_arg1)) (m ((c : Thread nD τ).loc main_arg2)) := by
  funext i
  obtain ⟨b, s, o, rfl⟩ : ∃ (b : Fin 4) (s : Fin 2048) (o : Fin 2048), i = ix3 b s o := ⟨i 0, i 1, i 2, eq_ix3 i⟩
  rw [out_apply m c b s o]
  have h16 : (W8 m c main_v16 : S8192x2048.Idx → EReal) = OUT1 (U7 m) c := (W8_v16 m c).trans (final1_3 (U7 m) c)
  rw [congrFun h16]
  show (OUT1 (U7 m) c (ix2 _ o) : EReal) = QMlp.G _ _ _ (ix3 b s o)
  unfold OUT1 QMlp.G QMlp.outRow
  refine Finset.sum_congr rfl fun J _ => ?_
  show QMlp.quant (U7 m c main_v1_1 (ix2 _ (0 : Fin 1))) (U7 m c main_v1_0 (ix2 _ J)) * W7 m c main_v15 (ix2 o J) = _
  rw [congrFun (U7_scale m c), congrFun (U7_hidden m c), w2q_apply]
  unfold S0 H0
  show QMlp.quant (QMlp.scaleOf (QMlp.hid (xrow (U1 m) c _) (w1rows (U1 m) c))) (QMlp.hid (xrow (U1 m) c _) (w1rows (U1 m) c) J) * _ = _
  rw [xrow_eq m c b s, w1rows_eq m c]
  rfl

end Cert.KernelIdeal.Hand

end
-- ==== Proof.RefMax.lean ====
/-
  The four maxima of magnitudes the reference program takes along a last axis, each read at a row as the
  specification's largest magnitude of that row: the fold of max from -∞ over the row's |entries|.
-/
import proofs.«162558_j39865886442066_2_alg».proof.Proof.Gen.ReferenceIdeal.Read
import proofs.«162558_j39865886442066_2_alg».proof.Proof.Spec
import proofs.«162558_j39865886442066_2_alg».proof.Proof.LibHostRowMax

noncomputable section

namespace Cert.ReferenceIdeal.RefValue

open Cert.ReferenceIdeal Cert.ReferenceIdeal.Gen Idealize.ShloMosaic Idealize.ShloMosaic.ValueIdx

/-- The pattern of -∞. -/
theorem neg_inf_eq : Ideal.ofBits .f32 0xFF800000#32 = (⊥ : EReal) := by
  simp [Ideal.ofBits, Ideal.ieee]

/-- Entry (p, q, k) of a rank-3 array is the entry at (p, q) with k put back on the reduced last axis. -/
theorem lift_last3 {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- The host's maximum along the last axis of a rank-3 array, from its scalar initial value, at (p, q). -/
theorem host_max_last3_apply {a b c : ℕ} (x : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (q : Fin b) :
    Host.reduce (FloatOps.maximumf (F := Ideal) (φ := .f32)) x init h' hu (ix2 p q)
      = (Finset.univ : Finset (Fin c)).fold max (init ix0) (fun k => x (ix3 p q k)) := by
  rw [Host.reduce_eq_fold_single (FloatOps.maximumf (F := Ideal) (φ := .f32)) x init h' h hu (ix2 p q)]
  show Finset.fold max _ _ Finset.univ = _
  rw [show init (Shape.Idx.first hu) = init ix0 from congrArg init (funext fun q => q.elim0)]
  refine congrArg (fun f => Finset.fold max _ f Finset.univ) ?_
  exact funext fun k => congrArg x (lift_last3 h p q k)

theorem v1_eq (x0 : (⟨S4x2048x2048, .f32⟩ : BufTy).Contents (Elt Ideal)) (a : Fin 4) (b : Fin 2048) :
    Read.val_main_v1 (F := Ideal) x0 (ix2 a b) = QMlp.amax (fun k => x0 (ix3 a b k)) := by
  unfold Read.val_main_v1
  rw [host_max_last3_apply _ _ _ (by decide) _ a b]
  show Finset.univ.fold max (Ideal.ofBits .f32 0xFF800000#32) (fun k => max (x0 (ix3 a b k)) (-(x0 (ix3 a b k)))) = _
  rw [neg_inf_eq]; rfl

theorem v36_eq (x0 : (⟨S4x2048x2048, .f32⟩ : BufTy).Contents (Elt Ideal)) (x1 : (⟨S11264x2048, .f32⟩ : BufTy).Contents (Elt Ideal))
    (a : Fin 4) (b : Fin 2048) :
    Read.val_main_v36 (F := Ideal) x0 x1 (ix2 a b) = QMlp.amax (fun k => Read.val_main_v34 (F := Ideal) x0 x1 (ix3 a b k)) := by
  unfold Read.val_main_v36
  rw [host_max_last3_apply _ _ _ (by decide) _ a b]
  show Finset.univ.fold max (Ideal.ofBits .f32 0xFF800000#32)
    (fun k => max (Read.val_main_v34 (F := Ideal) x0 x1 (ix3 a b k)) (-(Read.val_main_v34 (F := Ideal) x0 x1 (ix3 a b k)))) = _
  rw [neg_inf_eq]; rfl

theorem v16_eq (x1 : (⟨S11264x2048, .f32⟩ : BufTy).Contents (Elt Ideal)) (o : Fin 11264) :
    Read.val_main_v16 (F := Ideal) x1 (ix1 o) = QMlp.amax (fun k => x1 (ix2 o k)) := by
  unfold Read.val_main_v16
  rw [Cert.LibHostRowMax.host_max_rows_apply _ _ _ (by decide) _ o]
  show Finset.univ.fold max (Ideal.ofBits .f32 0xFF800000#32) (fun k => max (x1 (ix2 o k)) (-(x1 (ix2 o k)))) = _
  rw [neg_inf_eq]; rfl

theorem v51_eq (x2 : (⟨S2048x5632, .f32⟩ : BufTy).Contents (Elt Ideal)) (o : Fin 2048) :
    Read.val_main_v51 (F := Ideal) x2 (ix1 o) = QMlp.amax (fun k => x2 (ix2 o k)) := by
  unfold Read.val_main_v51
  rw [Cert.LibHostRowMax.host_max_rows_apply _ _ _ (by decide) _ o]
  show Finset.univ.fold max (Ideal.ofBits .f32 0xFF800000#32) (fun k => max (x2 (ix2 o k)) (-(x2 (ix2 o k)))) = _
  rw [neg_inf_eq]; rfl

end Cert.ReferenceIdeal.RefValue

end
-- ==== Proof.RefQuant.lean ====
/-
  The rounded input, first weight matrix and second weight matrix of the reference program, read at an index.
-/
import proofs.«162558_j39865886442066_2_alg».proof.Proof.RefMax
import proofs.«162558_j39865886442066_2_alg».proof.Proof.RefFinite

noncomputable section

namespace Cert.ReferenceIdeal.RefValue

open Cert.ReferenceIdeal Idealize.ShloMosaic Idealize.ShloMosaic.ValueIdx

theorem v6_eq (x0 : (⟨S4x2048x2048, .f32⟩ : BufTy).Contents (Elt Ideal)) (a : Fin 4) (b : Fin 2048) :
    Read.val_main_v6 (F := Ideal) x0 (ix3 a b (0 : Fin 1)) = QMlp.scaleOf (fun k => x0 (ix3 a b k)) := by
  have e2 : Read.idx_main_v2 (ix3 a b (0 : Fin 1)) = ix2 a b :=
    funext fun ax => Fin.ext (by match ax with | ⟨0, _⟩ => rfl | ⟨1, _⟩ => rfl)
  rw [Read.val_main_v6_apply, Read.val_main_v4_apply, Read.val_main_v2_apply, Read.val_main_v3_apply, Read.val_main_v5_apply,
    Read.val_main_cst_0_apply, Read.val_main_cst_1_apply, e2, v1_eq]
  rfl

theorem v14_eq (x0 : (⟨S4x2048x2048, .f32⟩ : BufTy).Contents (Elt Ideal)) (h0 : ∀ i, ∃ r : ℝ, x0 i = (r : EReal))
    (a : Fin 4) (b : Fin 2048) (k : Fin 2048) :
    Read.val_main_v14 (F := Ideal) x0 (ix3 a b k) = QMlp.fq (fun k => x0 (ix3 a b k)) k := by
  have e7 : Read.idx_main_v7 (ix3 a b k) = ix3 a b (0 : Fin 1) :=
    funext fun ax => Fin.ext (by match ax with | ⟨0, _⟩ => rfl | ⟨1, _⟩ => rfl | ⟨2, _⟩ => rfl)
  have e11 : Read.idx_main_v11 (ix3 a b k) = ix3 a b (0 : Fin 1) :=
    funext fun ax => Fin.ext (by match ax with | ⟨0, _⟩ => rfl | ⟨1, _⟩ => rfl | ⟨2, _⟩ => rfl)
  rw [Read.val_main_v14_apply, Read.val_main_v13_apply, Read.val_main_v12_apply, Read.val_main_v10_apply, Read.val_main_v11_apply,
    Read.val_main_call1_v4_apply, Read.val_main_call1_v3_apply, Read.val_main_cst_3_apply, Read.val_main_call1_v2_apply,
    Read.val_main_call1_v1_apply, Read.val_main_call1_v0_apply, Read.val_main_cst_2_apply, Read.val_main_v9_apply,
    Read.val_main_v8_apply, Read.val_main_v7_apply, e7, e11, v6_eq]
  exact QMlp.ste_eq (fun k => x0 (ix3 a b k)) (fun k => h0 (ix3 a b k)) k

theorem v21_eq (x1 : (⟨S11264x2048, .f32⟩ : BufTy).Contents (Elt Ideal)) (o : Fin 11264) :
    Read.val_main_v21 (F := Ideal) x1 (ix2 o (0 : Fin 1)) = QMlp.scaleOf (fun k => x1 (ix2 o k)) := by
  have e17 : Read.idx_main_v17 (ix2 o (0 : Fin 1)) = ix1 o :=
    funext fun ax => Fin.ext (by match ax with | ⟨0, _⟩ => rfl)
  rw [Read.val_main_v21_apply, Read.val_main_v19_apply, Read.val_main_v17_apply, Read.val_main_v18_apply, Read.val_main_v20_apply,
    Read.val_main_cst_5_apply, Read.val_main_cst_6_apply, e17, v16_eq]
  rfl

theorem v29_eq (x1 : (⟨S11264x2048, .f32⟩ : BufTy).Contents (Elt Ideal)) (h1 : ∀ i, ∃ r : ℝ, x1 i = (r : EReal))
    (o : Fin 11264) (k : Fin 2048) :
    Read.val_main_v29 (F := Ideal) x1 (ix2 o k) = QMlp.fq (fun k => x1 (ix2 o k)) k := by
  have e22 : Read.idx_main_v22 (ix2 o k) = ix2 o (0 : Fin 1) :=
    funext fun ax => Fin.ext (by match ax with | ⟨0, _⟩ => rfl | ⟨1, _⟩ => rfl)
  have e26 : Read.idx_main_v26 (ix2 o k) = ix2 o (0 : Fin 1) :=
    funext fun ax => Fin.ext (by match ax with | ⟨0, _⟩ => rfl | ⟨1, _⟩ => rfl)
  rw [Read.val_main_v29_apply, Read.val_main_v28_apply, Read.val_main_v27_apply, Read.val_main_v25_apply, Read.val_main_v26_apply,
    Read.val_main_call3_v4_apply, Read.val_main_call3_v3_apply, Read.val_main_cst_8_apply, Read.val_main_call3_v2_apply,
    Read.val_main_call3_v1_apply, Read.val_main_call3_v0_apply, Read.val_main_cst_7_apply, Read.val_main_v24_apply,
    Read.val_main_v23_apply, Read.val_main_v22_apply, e22, e26, v21_eq]
  exact QMlp.ste_eq (fun k => x1 (ix2 o k)) (fun k => h1 (ix2 o k)) k

theorem v56_eq (x2 : (⟨S2048x5632, .f32⟩ : BufTy).Contents (Elt Ideal)) (o : Fin 2048) :
    Read.val_main_v56 (F := Ideal) x2 (ix2 o (0 : Fin 1)) = QMlp.scaleOf (fun k => x2 (ix2 o k)) := by
  have e52 : Read.idx_main_v52 (ix2 o (0 : Fin 1)) = ix1 o :=
    funext fun ax => Fin.ext (by match ax with | ⟨0, _⟩ => rfl)
  rw [Read.val_main_v56_apply, Read.val_main_v54_apply, Read.val_main_v52_apply, Read.val_main_v53_apply, Read.val_main_v55_apply,
    Read.val_main_cst_15_apply, Read.val_main_cst_16_apply, e52, v51_eq]
  rfl

theorem v64_eq (x2 : (⟨S2048x5632, .f32⟩ : BufTy).Contents (Elt Ideal)) (h2 : ∀ i, ∃ r : ℝ, x2 i = (r : EReal))
    (o : Fin 2048) (k : Fin 5632) :
    Read.val_main_v64 (F := Ideal) x2 (ix2 o k) = QMlp.fq (fun k => x2 (ix2 o k)) k := by
  have e57 : Read.idx_main_v57 (ix2 o k) = ix2 o (0 : Fin 1) :=
    funext fun ax => Fin.ext (by match ax with | ⟨0, _⟩ => rfl | ⟨1, _⟩ => rfl)
  have e61 : Read.idx_main_v61 (ix2 o k) = ix2 o (0 : Fin 1) :=
    funext fun ax => Fin.ext (by match ax with | ⟨0, _⟩ => rfl | ⟨1, _⟩ => rfl)
  rw [Read.val_main_v64_apply, Read.val_main_v63_apply, Read.val_main_v62_apply, Read.val_main_v60_apply, Read.val_main_v61_apply,
    Read.val_main_call8_v4_apply, Read.val_main_call8_v3_apply, Read.val_main_cst_18_apply, Read.val_main_call8_v2_apply,
    Read.val_main_call8_v1_apply, Read.val_main_call8_v0_apply, Read.val_main_cst_17_apply, Read.val_main_v59_apply,
    Read.val_main_v58_apply, Read.val_main_v57_apply, e57, e61, v56_eq]
  exact QMlp.ste_eq (fun k => x2 (ix2 o k)) (fun k => h2 (ix2 o k)) k

end Cert.ReferenceIdeal.RefValue

end
-- ==== Proof.RefHidden.lean ====
/-
  The first product, the gated hidden row and its rounding in the reference program, read at an index: the
  specification's projections, hidden row and rounded hidden row of the input row the index names.
-/
import proofs.«162558_j39865886442066_2_alg».proof.Proof.RefQuant

noncomputable section

namespace Cert.ReferenceIdeal.RefValue

open Cert.ReferenceIdeal Idealize.ShloMosaic Idealize.ShloMosaic.ValueIdx

section

variable (x0 : (⟨S4x2048x2048, .f32⟩ : BufTy).Contents (Elt Ideal)) (x1 : (⟨S11264x2048, .f32⟩ : BufTy).Contents (Elt Ideal))
  (h0 : ∀ i, ∃ r : ℝ, x0 i = (r : EReal)) (h1 : ∀ i, ∃ r : ℝ, x1 i = (r : EReal))

/-- Row (a, b) of the input. -/
abbrev xrow (a : Fin 4) (b : Fin 2048) : Fin 2048 → EReal := fun k => x0 (ix3 a b k)

/-- The first weight matrix by rows. -/
abbrev w1rows : Fin 11264 → Fin 2048 → EReal := fun o k => x1 (ix2 o k)

include h0 h1 in
theorem v30_eq (a : Fin 4) (b : Fin 2048) (o : Fin 11264) :
    Read.val_main_v30 (F := Ideal) x0 x1 (ix3 a b o) = QMlp.proj (xrow x0 a b) (w1rows x1) o := by
  rw [Read.val_main_v30_apply]
  unfold QMlp.proj
  refine Finset.sum_congr rfl fun k _ => ?_
  have el : Read.lidx_main_v30 (ix3 a b o) k = ix3 a b k :=
    funext fun ax => Fin.ext (by match ax with | ⟨0, _⟩ => rfl | ⟨1, _⟩ => rfl | ⟨2, _⟩ => rfl)
  have er : Read.ridx_main_v30 (ix3 a b o) k = ix2 o k :=
    funext fun ax => Fin.ext (by match ax with | ⟨0, _⟩ => rfl | ⟨1, _⟩ => rfl)
  rw [el, er, v14_eq x0 h0, v29_eq x1 h1]

include h0 h1 in
theorem v34_eq (a : Fin 4) (b : Fin 2048) (j : Fin 5632) :
    Read.val_main_v34 (F := Ideal) x0 x1 (ix3 a b j) = QMlp.hid (xrow x0 a b) (w1rows x1) j := by
  have e31 : Read.idx_main_v31 (ix3 a b j) = ix3 a b (⟨j.val, by omega⟩ : Fin 11264) :=
    funext fun ax => Fin.ext (by match ax with | ⟨0, _⟩ => rfl | ⟨1, _⟩ => rfl | ⟨2, _⟩ => rfl)
  have e32 : Read.idx_main_v32 (ix3 a b j) = ix3 a b (⟨5632 + j.val, by omega⟩ : Fin 11264) :=
    funext fun ax => Fin.ext (by match ax with | ⟨0, _⟩ => rfl | ⟨1, _⟩ => rfl | ⟨2, _⟩ => rfl)
  rw [Read.val_main_v34_apply, Read.val_main_v33_apply, Read.val_main_call4_v5_apply, Read.val_main_call4_v4_apply,
    Read.val_main_call4_cst_0_apply, Read.val_main_call4_v3_apply, Read.val_main_call4_v2_apply, Read.val_main_call4_cst_apply,
    Read.val_main_call4_v1_apply, Read.val_main_call4_v0_apply, Read.val_main_v31_apply, Read.val_main_v32_apply, e31, e32,
    v30_eq x0 x1 h0 h1, v30_eq x0 x1 h0 h1]
  simp only [Ideal.mulf_def, Ideal.hostDivf_def, Ideal.addf_def, Ideal.hostUnary_exp_def, Ideal.hostNegf_def, Ideal.negf_def,
    Ideal.ofBits_def, QMlp.one_eq]
  rfl

include h0 h1 in
theorem v41_eq (a : Fin 4) (b : Fin 2048) :
    Read.val_main_v41 (F := Ideal) x0 x1 (ix3 a b (0 : Fin 1)) = QMlp.scaleOf (QMlp.hid (xrow x0 a b) (w1rows x1)) := by
  have e37 : Read.idx_main_v37 (ix3 a b (0 : Fin 1)) = ix2 a b :=
    funext fun ax => Fin.ext (by match ax with | ⟨0, _⟩ => rfl | ⟨1, _⟩ => rfl)
  have eh : (fun k => Read.val_main_v34 (F := Ideal) x0 x1 (ix3 a b k)) = QMlp.hid (xrow x0 a b) (w1rows x1) :=
    funext fun k => v34_eq x0 x1 h0 h1 a b k
  rw [Read.val_main_v41_apply, Read.val_main_v39_apply, Read.val_main_v37_apply, Read.val_main_v38_apply, Read.val_main_v40_apply,
    Read.val_main_cst_10_apply, Read.val_main_cst_11_apply, e37, v36_eq, eh]
  rfl

include h0 h1 in
theorem v49_eq (a : Fin 4) (b : Fin 2048) (j : Fin 5632) :
    Read.val_main_v49 (F := Ideal) x0 x1 (ix3 a b j) = QMlp.fq (QMlp.hid (xrow x0 a b) (w1rows x1)) j := by
  have e42 : Read.idx_main_v42 (ix3 a b j) = ix3 a b (0 : Fin 1) :=
    funext fun ax => Fin.ext (by match ax with | ⟨0, _⟩ => rfl | ⟨1, _⟩ => rfl | ⟨2, _⟩ => rfl)
  have e46 : Read.idx_main_v46 (ix3 a b j) = ix3 a b (0 : Fin 1) :=
    funext fun ax => Fin.ext (by match ax with | ⟨0, _⟩ => rfl | ⟨1, _⟩ => rfl | ⟨2, _⟩ => rfl)
  rw [Read.val_main_v49_apply, Read.val_main_v48_apply, Read.val_main_v47_apply, Read.val_main_v45_apply, Read.val_main_v46_apply,
    Read.val_main_call6_v4_apply, Read.val_main_call6_v3_apply, Read.val_main_cst_13_apply, Read.val_main_call6_v2_apply,
    Read.val_main_call6_v1_apply, Read.val_main_call6_v0_apply, Read.val_main_cst_12_apply, Read.val_main_v44_apply,
    Read.val_main_v43_apply, Read.val_main_v42_apply, e42, e46, v41_eq x0 x1 h0 h1, v34_eq x0 x1 h0 h1]
  exact QMlp.ste_eq (QMlp.hid (xrow x0 a b) (w1rows x1))
    (QMlp.hid_isR _ _ (fun k => h0 (ix3 a b k)) (fun o k => h1 (ix2 o k))) j

end

end Cert.ReferenceIdeal.RefValue

end
-- ==== Proof.RefSide.lean ====
/-
  The reference program's result is the specification's function of the three argument arrays, when every
  entry of the arguments is a real number: each result entry is the sum, over the hidden columns, of the rounded
  hidden row of its input row times the rounded row of the second weight matrix its column names.
-/
import proofs.«162558_j39865886442066_2_alg».proof.Proof.RefHidden

noncomputable section

namespace Cert.ReferenceIdeal.RefValue

open Cert.ReferenceIdeal Idealize.ShloMosaic Idealize.ShloMosaic.ValueIdx

theorem v65_eq (x0 : (⟨S4x2048x2048, .f32⟩ : BufTy).Contents (Elt Ideal)) (x1 : (⟨S11264x2048, .f32⟩ : BufTy).Contents (Elt Ideal))
    (x2 : (⟨S2048x5632, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (a : Fin 4) (b : Fin 2048) (o : Fin 2048) :
    Read.val_main_v65 (F := Ideal) x0 x1 x2 (ix3 a b o)
      = QMlp.outRow (xrow x0 a b) (w1rows x1) (fun o j => x2 (ix2 o j)) o := by
  rw [Read.val_main_v65_apply]
  unfold QMlp.outRow
  refine Finset.sum_congr rfl fun k _ => ?_
  have el : Read.lidx_main_v65 (ix3 a b o) k = ix3 a b k :=
    funext fun ax => Fin.ext (by match ax with | ⟨0, _⟩ => rfl | ⟨1, _⟩ => rfl | ⟨2, _⟩ => rfl)
  have er : Read.ridx_main_v65 (ix3 a b o) k = ix2 o k :=
    funext fun ax => Fin.ext (by match ax with | ⟨0, _⟩ => rfl | ⟨1, _⟩ => rfl)
  rw [el, er, v49_eq x0 x1 h0 h1, v64_eq x2 h2]

theorem ref_eq (x0 : (⟨S4x2048x2048, .f32⟩ : BufTy).Contents (Elt Ideal)) (x1 : (⟨S11264x2048, .f32⟩ : BufTy).Contents (Elt Ideal))
    (x2 : (⟨S2048x5632, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v65 (F := Ideal) x0 x1 x2 = QMlp.G x0 x1 x2 := by
  funext i
  obtain ⟨a, b, o, rfl⟩ : ∃ (a : Fin 4) (b : Fin 2048) (o : Fin 2048), i = ix3 a b o := ⟨i 0, i 1, i 2, eq_ix3 i⟩
  exact v65_eq x0 x1 x2 h0 h1 h2 a b o

end Cert.ReferenceIdeal.RefValue

end
-- ==== Proof.RefPre.lean ====
/-
  The precondition says that every entry of each of the three arguments has a magnitude below +∞; an extended
  real with that property is a real number.
-/
import proofs.«162558_j39865886442066_2_alg».proof.Pre_finite_inputs
import Idealize.ShloMosaic.Lib.ReduceAll
import Idealize.ShloMosaic.Lib.ValueIdx
import Idealize.ShloMosaic.PureOps.Ideal.Laws

noncomputable section

namespace Cert.ReferenceIdeal.RefValue

open Idealize.ShloMosaic

/-- An extended real whose magnitude compares below the pattern of +∞ is a real. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

theorem finite_of_pre [Cert.Pre_finite_inputs.Facts]
    (a0 : FVec Ideal Cert.Pre_finite_inputs.S4x2048x2048 .f32) (a1 : FVec Ideal Cert.Pre_finite_inputs.S11264x2048 .f32)
    (a2 : FVec Ideal Cert.Pre_finite_inputs.S2048x5632 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  haveI : Subsingleton Cert.Pre_finite_inputs.S_.Idx := ⟨fun a b => funext fun d => d.elim0⟩
  have h' := congrFun h ValueIdx.ix0
  dsimp only [Cert.Pre_finite_inputs.fn] at h'
  obtain ⟨h01, h2'⟩ := IntOp.andi_eq_one.1 h'
  obtain ⟨h0', h1'⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1' i)
  · exact real_of_abs_lt_inf _ (Host.reduce_andi_all _ _ _ _ _ h2' i)

end Cert.ReferenceIdeal.RefValue

end
-- ==== Proof.lean ====
/-
  The five claims, assembled.

  Both programs compute, row by row, a gated two-layer perceptron whose activations and weights pass through a
  symmetric 8-bit rounding. The kernel splits the work over two pipelined regions: the first rounds a block of input
  rows once and keeps it, multiplies it against tiles of the first weight matrix (read through two windows of one
  array, so the array's share is halved between them), applies the gated activation and raises a running per-row
  maximum tile after tile; the second re-rounds the hidden rows at the scale that maximum gives and accumulates the
  second product over inner tiles. Over the extended reals a running maximum raised from zero over tiles of
  magnitudes is the maximum of all magnitudes (same upper bounds), and a sum accumulated tile by tile is the whole
  sum (no cancellation), so neither needs finiteness. The reference writes each rounding as v + (q(v) - v); that is
  q(v) exactly when v is a real, which the precondition gives for the inputs and which the hidden activations
  inherit: the one place finiteness is used.
-/
import proofs.«162558_j39865886442066_2_alg».proof.Defs
import proofs.«162558_j39865886442066_2_alg».proof.Proof.Gen.Kernel
import proofs.«162558_j39865886442066_2_alg».proof.Proof.Gen.Kernel.Skeleton
import proofs.«162558_j39865886442066_2_alg».proof.Proof.Gen.Kernel.Launch
import proofs.«162558_j39865886442066_2_alg».proof.Proof.Gen.Kernel.Regions
import proofs.«162558_j39865886442066_2_alg».proof.Proof.Gen.Kernel.Points
import proofs.«162558_j39865886442066_2_alg».proof.Proof.Gen.KernelIdeal
import proofs.«162558_j39865886442066_2_alg».proof.Proof.Gen.KernelIdeal.Skeleton
import proofs.«162558_j39865886442066_2_alg».proof.Proof.Gen.KernelIdeal.Launch
import proofs.«162558_j39865886442066_2_alg».proof.Proof.Gen.KernelIdeal.Regions
import proofs.«162558_j39865886442066_2_alg».proof.Proof.Gen.KernelIdeal.Points
import proofs.«162558_j39865886442066_2_alg».proof.Proof.Gen.ReferenceIdeal
import proofs.«162558_j39865886442066_2_alg».proof.Proof.Gen.ReferenceIdeal.Run
import proofs.«162558_j39865886442066_2_alg».proof.Proof.Gen.ReferenceIdeal.Read
import proofs.«162558_j39865886442066_2_alg».proof.Proof.Gen.Pre_finite_inputs
import proofs.«162558_j39865886442066_2_alg».proof.Proof.K.Frames
import proofs.«162558_j39865886442066_2_alg».proof.Proof.Frames
import proofs.«162558_j39865886442066_2_alg».proof.Proof.KernelValue
import proofs.«162558_j39865886442066_2_alg».proof.Proof.RefSide
import proofs.«162558_j39865886442066_2_alg».proof.Proof.RefPre
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Hand.frame m ρ
/-- So does its reading over the extended reals. -/
theorem frame_ki : Cert.frame_KernelIdeal := fun m ρ _ => Cert.KernelIdeal.Hand.frame m ρ
/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on finite arguments, both programs end with the specification's
    function of the arguments in their result buffers. -/
theorem algebraic : Cert.algebraic_KernelIdeal_ReferenceIdeal := by
  intro m ρ m' ρ' hpre hagree
  refine ⟨fun c => QMlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_all m ρ)
    · exact (h c _ (Cert.KernelIdeal.Hand.mem_uc Cert.KernelIdeal.main_v17 (by decide))).trans (Cert.KernelIdeal.Hand.kernel_value m c)
    · exact (h c _ (Cert.KernelIdeal.Hand.mem_uc Cert.KernelIdeal.main_arg0 (by decide))).trans (Cert.KernelIdeal.Hand.W9_kept m c Cert.KernelIdeal.main_arg0 (by decide) (by decide) (by decide) (by decide) (by decide) (by decide) (by decide) (by decide) (by decide))
    · exact (h c _ (Cert.KernelIdeal.Hand.mem_uc Cert.KernelIdeal.main_arg1 (by decide))).trans (Cert.KernelIdeal.Hand.W9_kept m c Cert.KernelIdeal.main_arg1 (by decide) (by decide) (by decide) (by decide) (by decide) (by decide) (by decide) (by decide) (by decide))
    · exact (h c _ (Cert.KernelIdeal.Hand.mem_uc Cert.KernelIdeal.main_arg2 (by decide))).trans (Cert.KernelIdeal.Hand.W9_kept m c Cert.KernelIdeal.main_arg2 (by decide) (by decide) (by decide) (by decide) (by decide) (by decide) (by decide) (by decide) (by decide))
  · refine (θ_run Cert.ReferenceIdeal.defs _ _).mono (fun r h c => ⟨?_, (h c).2⟩) (Cert.ReferenceIdeal.Value.run (F := Ideal) m' ρ')
    rw [(h c).1, Cert.ReferenceIdeal.Read.val_main_v65_eq, (hagree c).1, (hagree c).2.1, (hagree c).2.2]
    obtain ⟨f0, f1, f2⟩ := Cert.ReferenceIdeal.RefValue.finite_of_pre _ _ _ (hpre c)
    exact Cert.ReferenceIdeal.RefValue.ref_eq _ _ _ f0 f1 f2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
